-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S1000000x2 : Shape := ⟨2, ![1000000, 2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x64 .f32) (main_arg2 : FVec F S64 .f32) (main_arg3 : FVec F S64 .f32) (main_arg4 : FVec F S64 .f32) (main_arg5 : FVec F S64 .f32) (main_arg6 : FVec F S64 .f32) (main_arg7 : IVec S1000000x2 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S100000x128 : Shape := ⟨2, ![100000, 128]⟩
abbrev S128x64 : Shape := ⟨2, ![128, 64]⟩
abbrev S64 : Shape := ⟨1, ![64]⟩
abbrev S1000000x2 : Shape := ⟨2, ![1000000, 2]⟩
abbrev S1000000x1 : Shape := ⟨2, ![1000000, 1]⟩
abbrev S1000000 : Shape := ⟨1, ![1000000]⟩
abbrev S_ : Shape := ⟨0, ![]⟩
abbrev S100000 : Shape := ⟨1, ![100000]⟩
abbrev S100000x1 : Shape := ⟨2, ![100000, 1]⟩
abbrev S1x64 : Shape := ⟨2, ![1, 64]⟩
abbrev S100000x64 : Shape := ⟨2, ![100000, 64]⟩
abbrev S4000x128 : Shape := ⟨2, ![4000, 128]⟩
abbrev S4000x1 : Shape := ⟨2, ![4000, 1]⟩
abbrev S4000x64 : Shape := ⟨2, ![4000, 64]⟩
abbrev S1000000x64 : Shape := ⟨2, ![1000000, 64]⟩
abbrev S50000x2 : Shape := ⟨2, ![50000, 2]⟩
abbrev S50000x128 : Shape := ⟨2, ![50000, 128]⟩
abbrev S2x64 : Shape := ⟨2, ![2, 64]⟩
abbrev S128 : Shape := ⟨1, ![128]⟩
abbrev S1x128 : Shape := ⟨2, ![1, 128]⟩
abbrev S2000x128 : Shape := ⟨2, ![2000, 128]⟩
abbrev S2000x2 : Shape := ⟨2, ![2000, 2]⟩
abbrev S2000x1 : Shape := ⟨2, ![2000, 1]⟩

abbrev nBuf : Space → Nat
  | .hbm => 57
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1000000x2, .i32⟩
  | .hbm, ⟨8, _⟩ => ⟨S1000000x1, .i32⟩
  | .hbm, ⟨9, _⟩ => ⟨S1000000, .i32⟩
  | .hbm, ⟨10, _⟩ => ⟨S1000000x1, .i32⟩
  | .hbm, ⟨11, _⟩ => ⟨S1000000, .i32⟩
  | .hbm, ⟨12, _⟩ => ⟨S_, .f32⟩
  | .hbm, ⟨13, _⟩ => ⟨S1000000, .f32⟩
  | .hbm, ⟨14, _⟩ => ⟨S_, .f32⟩
  | .hbm, ⟨15, _⟩ => ⟨S100000, .f32⟩
  | .hbm, ⟨16, _⟩ => ⟨S1000000x1, .i32⟩
  | .hbm, ⟨17, _⟩ => ⟨S100000, .f32⟩
  | .hbm, ⟨18, _⟩ => ⟨S100000x1, .f32⟩
  | .hbm, ⟨19, _⟩ => ⟨S1x64, .f32⟩
  | .hbm, ⟨20, _⟩ => ⟨S100000x64, .f32⟩
  | .hbm, ⟨21, _⟩ => ⟨S100000x64, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x64, .f32⟩
  | .hbm, ⟨31, _⟩ => ⟨S_, .f32⟩
  | .hbm, ⟨32, _⟩ => ⟨S100000x64, .f32⟩
  | .hbm, ⟨33, _⟩ => ⟨S1000000x1, .i32⟩
  | .hbm, ⟨34, _⟩ => ⟨S100000x64, .f32⟩
  | .hbm, ⟨35, _⟩ => ⟨S50000x2, .f32⟩
  | .hbm, ⟨36, _⟩ => ⟨S50000x128, .f32⟩
  | .hbm, ⟨37, _⟩ => ⟨S50000x128, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S1x64, .f32⟩
  | .hbm, ⟨44, _⟩ => ⟨S2x64, .f32⟩
  | .hbm, ⟨45, _⟩ => ⟨S128, .f32⟩
  | .hbm, ⟨46, _⟩ => ⟨S1x128, .f32⟩
  | .hbm, ⟨47, _⟩ => ⟨S1x64, .f32⟩
  | .hbm, ⟨48, _⟩ => ⟨S2x64, .f32⟩
  | .hbm, ⟨49, _⟩ => ⟨S128, .f32⟩
  | .hbm, ⟨50, _⟩ => ⟨S1x128, .f32⟩
  | .hbm, ⟨51, _⟩ => ⟨S1x64, .f32⟩
  | .hbm, ⟨52, _⟩ => ⟨S2x64, .f32⟩
  | .hbm, ⟨53, _⟩ => ⟨S128, .f32⟩
  | .hbm, ⟨54, _⟩ => ⟨S1x128, .f32⟩
  | .hbm, ⟨55, _⟩ => ⟨S50000x128, .f32⟩
  | .hbm, ⟨56, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S1x64, .f32⟩
  | .local _ .vmem, ⟨4, _⟩ => ⟨S4000x1, .f32⟩
  | .local _ .vmem, ⟨5, _⟩ => ⟨S4000x1, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x2, .f32⟩
  | .local _ .vmem, ⟨15, _⟩ => ⟨S2000x2, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  bcast_S_S100000x64 : S_.BroadcastsInDim S100000x64 (![] : Fin 0 → Fin S100000x64.rank)
  shapeCasts_S100000x1_S50000x2 : S100000x1.ShapeCasts S50000x2
  shapeCasts_S100000x64_S50000x128 : S100000x64.ShapeCasts S50000x128
  bcast_S_S64 : S_.BroadcastsInDim S64 (![] : Fin 0 → Fin S64.rank)
  bcast_S1x64_S2x64_0_1 : S1x64.BroadcastsInDim S2x64 (![0, 1] : Fin 2 → Fin S2x64.rank)
  shapeCasts_S2x64_S128 : S2x64.ShapeCasts S128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x2_S2000x1_0_0 : ∀ a, (![0, 0] : Fin 2 → Nat) a + S2000x1.size a ≤ S2000x2.size a
  h_S2000x1 : 0 < S2000x1.numel
  shapeCasts_S2000x1_S2000x1 : S2000x1.ShapeCasts S2000x1
  inb_S2000x2_S2000x1_0_1 : ∀ a, (![0, 1] : Fin 2 → Nat) a + S2000x1.size a ≤ S2000x2.size a
  iota_S2000x128_d1_w32 : S2000x128.Iotas .tc 32 [1]
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S50000x128_S100000x64 : S50000x128.ShapeCasts S100000x64
  scatter_S100000_S1000000x1_S1000000_n_0_0_1_wf : ScatterDims.WF S100000 S1000000x1 S1000000 [] [0] [0] 1
  dot_S4000x128_S128x64_S4000x64_1_0_0_1_n_n_wf : DotDims.WF S4000x128 S128x64 S4000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S100000x1.size a
  hwx0_3 : ∀ i : grid0.Coords, EltTy.bits .f32 = 32 ∨ (Rect.block (s := S100000x1) S4000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x64.size a ≤ S100000x64.size a
  hwx0_4 : ∀ i : grid0.Coords, EltTy.bits .f32 = 32 ∨ (Rect.block (s := S100000x64) S4000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x64.size a ≤ S100000x64.size a
  hwx0_5 : ∀ i : grid0.Coords, EltTy.bits .f32 = 32 ∨ (Rect.block (s := S100000x64) S4000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x2.size a ≤ S50000x2.size a
  hwx1_2 : ∀ i : grid1.Coords, EltTy.bits .f32 = 32 ∨ (Rect.block (s := S50000x2) S2000x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S4000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S4000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S4000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S2000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S1000000x2 : Shape := ⟨2, ![1000000, 2]⟩
abbrev S1000000x1 : Shape := ⟨2, ![1000000, 1]⟩
abbrev S1000000 : Shape := ⟨1, ![1000000]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1000000x64 : Shape := ⟨2, ![1000000, 64]⟩
abbrev S100000x1 : Shape := ⟨2, ![100000, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1000000x2, .i32⟩
  | .hbm, ⟨8, _⟩ => ⟨S1000000x1, .i32⟩
  | .hbm, ⟨9, _⟩ => ⟨S1000000, .i32⟩
  | .hbm, ⟨10, _⟩ => ⟨S1000000x1, .i32⟩
  | .hbm, ⟨11, _⟩ => ⟨S1000000, .i32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S_, .f32⟩
  | .hbm, ⟨17, _⟩ => ⟨S1000000, .f32⟩
  | .hbm, ⟨18, _⟩ => ⟨S_, .f32⟩
  | .hbm, ⟨19, _⟩ => ⟨S100000, .f32⟩
  | .hbm, ⟨20, _⟩ => ⟨S1000000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000, .f32⟩
  | .hbm, ⟨43, _⟩ => ⟨S1000000, .f32⟩
  | .hbm, ⟨44, _⟩ => ⟨S1000000x1, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x64, .f32⟩
  | .hbm, ⟨54, _⟩ => ⟨S1000000x64, .f32⟩
  | .hbm, ⟨55, _⟩ => ⟨S1000000x64, .f32⟩
  | .hbm, ⟨56, _⟩ => ⟨S_, .f32⟩
  | .hbm, ⟨57, _⟩ => ⟨S100000x64, .f32⟩
  | .hbm, ⟨58, _⟩ => ⟨S1000000x1, .i32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1000000, .i32⟩
  | .hbm, ⟨65, _⟩ => ⟨S1000000, .i1⟩
  | .hbm, ⟨66, _⟩ => ⟨S_, .i32⟩
  | .hbm, ⟨67, _⟩ => ⟨S1000000, .i32⟩
  | .hbm, ⟨68, _⟩ => ⟨S1000000, .i32⟩
  | .hbm, ⟨69, _⟩ => ⟨S1000000, .i32⟩
  | .hbm, ⟨70, _⟩ => ⟨S1000000x1, .i32⟩
  | .hbm, ⟨71, _⟩ => ⟨S1000000, .f32⟩
  | .hbm, ⟨72, _⟩ => ⟨S1000000x1, .f32⟩
  | .hbm, ⟨73, _⟩ => ⟨S_, .i32⟩
  | .hbm, ⟨74, _⟩ => ⟨S1000000, .i32⟩
  | .hbm, ⟨75, _⟩ => ⟨S1000000, .i1⟩
  | .hbm, ⟨76, _⟩ => ⟨S_, .i32⟩
  | .hbm, ⟨77, _⟩ => ⟨S1000000, .i32⟩
  | .hbm, ⟨78, _⟩ => ⟨S1000000, .i32⟩
  | .hbm, ⟨79, _⟩ => ⟨S1000000, .i32⟩
  | .hbm, ⟨80, _⟩ => ⟨S1000000x1, .i32⟩
  | .hbm, ⟨81, _⟩ => ⟨S1000000x64, .f32⟩
  | .hbm, ⟨82, _⟩ => ⟨S1000000x64, .f32⟩
  | .hbm, ⟨83, _⟩ => ⟨S1000000x64, .f32⟩
  | .hbm, ⟨84, _⟩ => ⟨S_, .f32⟩
  | .hbm, ⟨85, _⟩ => ⟨S100000x64, .f32⟩
  | .hbm, ⟨86, _⟩ => ⟨S1000000x1, .i32⟩
  | .hbm, ⟨87, _⟩ => ⟨S100000x64, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64, .f32⟩
  | .hbm, ⟨105, _⟩ => ⟨S64, .f32⟩
  | .hbm, ⟨106, _⟩ => ⟨S1x64, .f32⟩
  | .hbm, ⟨107, _⟩ => ⟨S100000x64, .f32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S64 : S_.BroadcastsInDim S64 (![] : Fin 0 → Fin S64.rank)
  dot_S100000x128_S128x64_S100000x64_1_0_0_1_n_n_wf : DotDims.WF S100000x128 S128x64 S100000x64 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.KRun.lean ====
/-
  The kernel program's run with its result named.

  The program is five segments in a row: host operations, the first kernel region, host operations, the second
  kernel region, one last host operation. The buffer contents at each boundary are a fold from the launch memory, and
  after the last segment every unscoped buffer holds the last fold's contents. So every weakly fair execution ends
  with the result buffer at that fold's value and with the eight argument arrays as launched.
-/
import proofs.«133288_j33552284516502_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer at the last boundary's contents and the
    arguments unchanged. -/
theorem run_value : θ_run defs (onTc (τ := τ) (main (F := F))) ⟨m, fun _ => 0, ρ⟩ (fun r => ∀ c : Dev nD,
      r.2.mem ((c.tc : Thread nD τ).loc main_v41) = W5 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v41 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.ValueRun

end
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.BlockSpec.lean ====
/-
  What the two kernel regions compute, as functions of whole arrays, on the extended reals.

  The first region works on blocks of rows of a dense layer h = x * w + b (b held as one row) and leaves two arrays:
  every row n of h scaled by the guarded reciprocal square root of a per-row number s n (a column [N, 1]), and every
  row n of h scaled by s n itself. The second region works on rows that hold two consecutive nodes each (the first
  64 lanes the even node, the last 64 the odd one): lane l of row p combines a gathered sum and the node's own
  term, with the per-node factor taken from column 0 or 1 of a two-column array according to the lane's half, and
  applies an affine normalisation whose three parameters are rows of 128 lanes.
-/
import Idealize.ShloMosaic.Lib.ValueIdx
import Idealize.ShloMosaic.PureOps.Ideal
import proofs.«133288_j33552284516502_2_alg».proof.Proof.LibDenseRows

noncomputable section

namespace Cert.BlockSpec

open Idealize.ShloMosaic Idealize.ShloMosaic.ValueIdx Cert.DenseRows

/-- The reciprocal square root guarded by a test for a positive argument: 0 where the argument is not positive. -/
def invg (x : EReal) : EReal :=
  Scalar.select (Ideal.cmp .ogt x (Ideal.ofBits .f32 0x00000000#32)) (Ideal.rsqrt x) (Ideal.ofBits .f32 0x00000000#32)

/-- One half, as the f32 word the programs carry. -/
abbrev half : EReal := Ideal.ofBits .f32 0x3F000000#32

/-- Entry (n, k) of the dense layer x * w + b, the bias a one-row matrix. -/
def hrow (x : (⟨2, ![100000, 128]⟩ : Shape).Idx → EReal) (w : (⟨2, ![128, 64]⟩ : Shape).Idx → EReal)
    (b : (⟨2, ![1, 64]⟩ : Shape).Idx → EReal) (n : Fin 100000) (k : Fin 64) : EReal :=
  affine (row x n) (mat w) (row b (0 : Fin 1)) k

/-- The first region's first result: the layer's rows scaled by the guarded reciprocal square root of the column. -/
def hsArr (x : (⟨2, ![100000, 128]⟩ : Shape).Idx → EReal) (w : (⟨2, ![128, 64]⟩ : Shape).Idx → EReal)
    (b : (⟨2, ![1, 64]⟩ : Shape).Idx → EReal) (s : (⟨2, ![100000, 1]⟩ : Shape).Idx → EReal) :
    (⟨2, ![100000, 64]⟩ : Shape).Idx → EReal :=
  fun i => hrow x w b ⟨(i 0).val, (i 0).isLt⟩ ⟨(i 1).val, (i 1).isLt⟩ * invg (s (ix2 ⟨(i 0).val, (i 0).isLt⟩ (0 : Fin 1)))

/-- The first region's second result: the layer's rows scaled by the column itself. -/
def ssArr (x : (⟨2, ![100000, 128]⟩ : Shape).Idx → EReal) (w : (⟨2, ![128, 64]⟩ : Shape).Idx → EReal)
    (b : (⟨2, ![1, 64]⟩ : Shape).Idx → EReal) (s : (⟨2, ![100000, 1]⟩ : Shape).Idx → EReal) :
    (⟨2, ![100000, 64]⟩ : Shape).Idx → EReal :=
  fun i => hrow x w b ⟨(i 0).val, (i 0).isLt⟩ ⟨(i 1).val, (i 1).isLt⟩ * s (ix2 ⟨(i 0).val, (i 0).isLt⟩ (0 : Fin 1))

theorem hsArr_apply (x w b s) (n : Fin 100000) (k : Fin 64) :
    hsArr x w b s (ix2 n k) = hrow x w b n k * invg (s (ix2 n (0 : Fin 1))) := rfl

theorem ssArr_apply (x w b s) (n : Fin 100000) (k : Fin 64) :
    ssArr x w b s (ix2 n k) = hrow x w b n k * s (ix2 n (0 : Fin 1)) := rfl

/-- The second region's result at row p (two nodes), lane l. -/
def out2Arr (ns ss : (⟨2, ![50000, 128]⟩ : Shape).Idx → EReal) (d : (⟨2, ![50000, 2]⟩ : Shape).Idx → EReal)
    (sc be me : (⟨2, ![1, 128]⟩ : Shape).Idx → EReal) : (⟨2, ![50000, 128]⟩ : Shape).Idx → EReal :=
  fun i =>
    (((half * (if (i 1).val < 64 then invg (d (ix2 ⟨(i 0).val, (i 0).isLt⟩ (0 : Fin 2)))
                else invg (d (ix2 ⟨(i 0).val, (i 0).isLt⟩ (1 : Fin 2))))) * ns i + half * ss i)
        - me (ix2 (0 : Fin 1) ⟨(i 1).val, (i 1).isLt⟩)) * sc (ix2 (0 : Fin 1) ⟨(i 1).val, (i 1).isLt⟩)
      + be (ix2 (0 : Fin 1) ⟨(i 1).val, (i 1).isLt⟩)

theorem out2Arr_apply (ns ss d sc be me) (p : Fin 50000) (l : Fin 128) :
    out2Arr ns ss d sc be me (ix2 p l)
      = (((half * (if l.val < 64 then invg (d (ix2 p (0 : Fin 2))) else invg (d (ix2 p (1 : Fin 2))))) * ns (ix2 p l)
            + half * ss (ix2 p l)) - me (ix2 (0 : Fin 1) l)) * sc (ix2 (0 : Fin 1) l) + be (ix2 (0 : Fin 1) l) := rfl

end Cert.BlockSpec

end
-- ==== Proof.KStages.lean ====
/-
  The kernel program's result as one function of its argument arrays.

  Between the launch and the return the buffers pass through five stretches. Host operations first compute the edge
  index columns, the out-degrees (a scatter of ones by source) as a column, and the bias as one row. The first region
  turns the node features into the two scaled dense-layer arrays. Host operations then gather the first of them by target,
  scatter-add the gathered rows by source, view the sum, the second array and the degree column as rows of two nodes, and
  spread the three normalisation parameter vectors over both halves of a 128-lane row. The second region combines and
  normalises, and the last host operation views its rows of two nodes as rows of one node again.
-/
import proofs.«133288_j33552284516502_2_alg».proof.Proof.Gen.KernelIdeal
import proofs.«133288_j33552284516502_2_alg».proof.Proof.BlockSpec
import Idealize.ShloMosaic.PureOps.Ideal

set_option maxRecDepth 16384

noncomputable section

namespace Cert.KernelIdeal.Stages

open Cert.KernelIdeal Cert.KernelIdeal.Gen Cert.BlockSpec
open Idealize.ShloMosaic Idealize.SL.Sem

/-! ## The stages, as functions of the argument arrays -/

/-- The edges' sources, one per edge. -/
def srcFlat (x7 : S1000000x2.Idx → BitVec 32) : S1000000.Idx → BitVec 32 :=
  shapeCast S1000000 (extractStridedSlice S1000000x1 ![0, 0] x7 slices_S1000000x2_S1000000x1_0_0) shapeCasts_S1000000x1_S1000000

/-- The edges' targets, one per edge. -/
def dstFlat (x7 : S1000000x2.Idx → BitVec 32) : S1000000.Idx → BitVec 32 :=
  shapeCast S1000000 (extractStridedSlice S1000000x1 ![0, 1] x7 slices_S1000000x2_S1000000x1_0_1) shapeCasts_S1000000x1_S1000000

/-- The sources as a column of start indices. -/
def srcCol (x7 : S1000000x2.Idx → BitVec 32) : S1000000x1.Idx → BitVec 32 :=
  broadcastInDim S1000000x1 ![0] bcast_S1000000_S1000000x1_0 (srcFlat x7)

/-- The targets, a negative one moved up by the node count, as a column of start indices. -/
def dstCol (x7 : S1000000x2.Idx → BitVec 32) : S1000000x1.Idx → BitVec 32 :=
  broadcastInDim S1000000x1 ![0] bcast_S1000000_S1000000x1_0
    (select (cmpi .slt (dstFlat x7) (broadcastInDim S1000000 ![] bcast_S_S1000000 (constantI S_ 32 0#32)))
      (addi (dstFlat x7) (broadcastInDim S1000000 ![] bcast_S_S1000000 (constantI S_ 32 100000#32))) (dstFlat x7))

/-- The out-degrees: ones scattered by source onto zeros. -/
def degVec (x7 : S1000000x2.Idx → BitVec 32) : S100000.Idx → EReal :=
  Host.scatterAdd (F := Ideal) scatter_S100000_S1000000x1_S1000000_n_0_0_1
    (broadcastInDim S100000 ![] bcast_S_S100000 (constant (F := Ideal) S_ .f32 0x00000000#32)) (srcCol x7)
    (broadcastInDim S1000000 ![] bcast_S_S1000000 (constant (F := Ideal) S_ .f32 0x3F800000#32))

/-- The out-degrees as a column. -/
def degCol (x7 : S1000000x2.Idx → BitVec 32) : S100000x1.Idx → EReal :=
  shapeCast S100000x1 (degVec x7) shapeCasts_S100000_S100000x1

/-- The bias as one row. -/
def biasRow (x2 : S64.Idx → EReal) : S1x64.Idx → EReal := shapeCast S1x64 x2 shapeCasts_S64_S1x64

/-- The first region's results, from the argument arrays. -/
def hsA (x0 : S100000x128.Idx → EReal) (x1 : S128x64.Idx → EReal) (x2 : S64.Idx → EReal) (x7 : S1000000x2.Idx → BitVec 32) :
    S100000x64.Idx → EReal := hsArr x0 x1 (biasRow x2) (degCol x7)
def ssA (x0 : S100000x128.Idx → EReal) (x1 : S128x64.Idx → EReal) (x2 : S64.Idx → EReal) (x7 : S1000000x2.Idx → BitVec 32) :
    S100000x64.Idx → EReal := ssArr x0 x1 (biasRow x2) (degCol x7)

/-- The far ends' scaled rows summed over each node's edges: gathered by target, scatter-added by source onto zeros. -/
def neigh (x0 : S100000x128.Idx → EReal) (x1 : S128x64.Idx → EReal) (x2 : S64.Idx → EReal) (x7 : S1000000x2.Idx → BitVec 32) :
    S100000x64.Idx → EReal :=
  Host.scatterAdd (F := Ideal) scatter_S100000x64_S1000000x1_S1000000x64_1_0_0_1
    (broadcastInDim S100000x64 ![] bcast_S_S100000x64 (constant (F := Ideal) S_ .f32 0x00000000#32)) (srcCol x7)
    (Host.gather gather_S100000x64_S1000000x1_S1000000x64_1_0_n_n_0_1_164 (hsA x0 x1 x2 x7) (dstCol x7))

/-- A vector of 64 parameters spread over both halves of a 128-lane row. -/
def tile (v : S64.Idx → EReal) : S1x128.Idx → EReal :=
  shapeCast S1x128
    (shapeCast S128 (broadcastInDim S2x64 ![0, 1] bcast_S1x64_S2x64_0_1 (shapeCast S1x64 v shapeCasts_S64_S1x64))
      shapeCasts_S2x64_S128) shapeCasts_S128_S1x128

/-- The normalisation's scale: gamma times the reciprocal square root of the shifted variance. -/
def scaleVec (x3 x6 : S64.Idx → EReal) : S64.Idx → EReal :=
  mulf (F := Ideal) x3 (Host.rsqrt (F := Ideal) (addf (F := Ideal) x6
    (broadcastInDim S64 ![] bcast_S_S64 (constant (F := Ideal) S_ .f32 0x3A83126F#32))))

/-- The second region's result, over rows of two nodes. -/
def out2 (x0 : S100000x128.Idx → EReal) (x1 : S128x64.Idx → EReal) (x2 x3 x4 x5 x6 : S64.Idx → EReal)
    (x7 : S1000000x2.Idx → BitVec 32) : S50000x128.Idx → EReal :=
  out2Arr (shapeCast S50000x128 (neigh x0 x1 x2 x7) shapeCasts_S100000x64_S50000x128)
    (shapeCast S50000x128 (ssA x0 x1 x2 x7) shapeCasts_S100000x64_S50000x128)
    (shapeCast S50000x2 (degCol x7) shapeCasts_S100000x1_S50000x2) (tile (scaleVec x3 x6)) (tile x4) (tile x5)

/-- The program's result. -/
def kout (x0 : S100000x128.Idx → EReal) (x1 : S128x64.Idx → EReal) (x2 x3 x4 x5 x6 : S64.Idx → EReal)
    (x7 : S1000000x2.Idx → BitVec 32) : S100000x64.Idx → EReal :=
  shapeCast S100000x64 (out2 x0 x1 x2 x3 x4 x5 x6 x7) shapeCasts_S50000x128_S100000x64

end Cert.KernelIdeal.Stages

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«133288_j33552284516502_2_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.TransformBlocks.lean ====
/-
  The dense transform, from blocks of rows to whole arrays, on the extended reals.

  The region walks 25 blocks of 4000 rows. On each block it computes the dense layer h = x * w + b (w the whole
  weight matrix, b the bias held as one row) and leaves two blocks: row r of h times the guarded reciprocal square
  root of s r, and row r of h times s r, where s is a column with one entry per row. Entry (r, q) of either block
  depends on row r of the x block, all of w and b, and entry (r, 0) of the s block; the blocks of x, s and of both
  results sit at the same 4000 rows of their arrays, and w and b are read whole at every point. Hence each block
  written back is the restriction to its rows of one function of the four input arrays, and since the 25 blocks
  cover all 100000 rows, each result array after the region is that function of the input arrays as the region
  found them.
-/
import proofs.«133288_j33552284516502_2_alg».proof.Proof.Gen.KernelIdeal.Frame
import proofs.«133288_j33552284516502_2_alg».proof.Proof.BlockSpec
import proofs.«133288_j33552284516502_2_alg».proof.Proof.LibDenseRows
import proofs.«133288_j33552284516502_2_alg».proof.Proof.LibBlockRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.TransformBlocks

open Cert.KernelIdeal Cert.KernelIdeal.Gen Idealize.ShloMosaic Idealize.ShloMosaic.TcCoe Idealize.SL.Sem
open Idealize.ShloMosaic.ValueIdx
open Idealize.ShloMosaic.Pipeline (Dat)
open Cert.DenseRows Cert.BlockSpec

/-! ## The body's two results at one entry of a block

  The body multiplies a block of 4000 rows by the weight matrix, adds the bias row to every row, and scales
  row r by a number that depends on entry (r, 0) of the column block alone. So entry (r, q) of either result
  depends on row r of the row block, the whole matrix, the bias row, and entry (r, 0) of the column block. -/

/-- The printed contraction contracts the left operand's last axis with the right operand's first and has no
    batch axis. -/
theorem dot_plain : dot_S4000x128_S128x64_S4000x64_1_0_0_1_n_n = DotDims.plain 4000 128 64 := rfl

/-- Row r of the dense layer computed on a block: the change of float format is the identity on the extended
    reals, the same-shape cast is the identity, the bias row is spread over the rows. -/
theorem pay1_row (x0 : Vec Ideal S4000x128 .f32) (x1 : Vec Ideal S128x64 .f32) (x2 : Vec Ideal S1x64 .f32)
    (r : Fin 4000) :
    row (k0_pay1 (F := Ideal) x0 x1 x2) r = affine (row x0 r) (mat x1) (row x2 (0 : Fin 1)) := by
  unfold k0_pay1
  show row (addf (matmul dot_S4000x128_S128x64_S4000x64_1_0_0_1_n_n none (truncf .bf16 x0 bitsLt_bf16_f32) (truncf .bf16 x1 bitsLt_bf16_f32) (constant (F := Ideal) S4000x64 .f32 0x00000000#32))
        (broadcastTo S4000x64 (shapeCast S1x64 x2 shapeCasts_S1x64_S1x64) broadcasts_S1x64_S4000x64)) r = _
  rw [shapeCast_self]
  exact Cert.LibBlockRows.row_matmul_rowbias _ dot_plain none _ _ x2 broadcasts_S1x64_S4000x64 r

/-- Entry (r, q) of the first result: the layer's entry times the guarded reciprocal square root of the
    column's entry in row r (the comparison, the reciprocal square root and the choice are entrywise; the column
    is spread over the lanes). -/
theorem pay3_apply (x0 : Vec Ideal S4000x128 .f32) (x1 : Vec Ideal S128x64 .f32) (x2 : Vec Ideal S1x64 .f32)
    (x3 : Vec Ideal S4000x1 .f32) (r : Fin 4000) (q : Fin 64) :
    k0_pay3 (F := Ideal) x0 x1 x2 x3 (ix2 r q)
      = affine (row x0 r) (mat x1) (row x2 (0 : Fin 1)) q * invg (x3 (ix2 r (0 : Fin 1))) := by
  rw [← pay1_row x0 x1 x2 r]
  unfold k0_pay3 k0_pay2
  show k0_pay1 x0 x1 x2 (ix2 r q) * broadcastTo S4000x64 _ broadcasts_S4000x1_S4000x64 (ix2 r q) = _
  rw [Cert.LibBlockRows.column_spread, shapeCast_self]
  rfl

/-- Entry (r, q) of the second result: the layer's entry times the column's entry in row r. -/
theorem pay4_apply (x0 : Vec Ideal S4000x128 .f32) (x1 : Vec Ideal S128x64 .f32) (x2 : Vec Ideal S1x64 .f32)
    (x3 : Vec Ideal S4000x1 .f32) (r : Fin 4000) (q : Fin 64) :
    k0_pay4 (F := Ideal) x0 x1 x2 x3 (ix2 r q)
      = affine (row x0 r) (mat x1) (row x2 (0 : Fin 1)) q * x3 (ix2 r (0 : Fin 1)) := by
  rw [← pay1_row x0 x1 x2 r]
  unfold k0_pay4 k0_pay2
  show k0_pay1 x0 x1 x2 (ix2 r q) * broadcastTo S4000x64 _ broadcasts_S4000x1_S4000x64 (ix2 r q) = _
  rw [Cert.LibBlockRows.column_spread, shapeCast_self]
  rfl

/-- A block entry against an array entry: when row r of the row block is row n of the row array, the matrix and
    bias blocks are the whole arrays, and the column block's row r is the column array's row n, the body's
    first result at (r, q) is the array function at (n, q). -/
theorem hs_point (A0 : S100000x128.Idx → EReal) (A1 : S128x64.Idx → EReal) (A2 : S1x64.Idx → EReal)
    (A3 : S100000x1.Idx → EReal)
    (x0 : Vec Ideal S4000x128 .f32) (x1 : Vec Ideal S128x64 .f32) (x2 : Vec Ideal S1x64 .f32)
    (x3 : Vec Ideal S4000x1 .f32) (n : Fin 100000) (r : Fin 4000) (q : Fin 64)
    (h0 : row x0 r = row A0 n) (h1 : x1 = A1) (h2 : x2 = A2)
    (h3 : x3 (ix2 r (0 : Fin 1)) = A3 (ix2 n (0 : Fin 1))) :
    k0_pay3 (F := Ideal) x0 x1 x2 x3 (ix2 r q) = hsArr A0 A1 A2 A3 (ix2 n q) := by
  rw [pay3_apply, hsArr_apply, h0, h1, h2, h3]
  rfl

/-- The same for the second result. -/
theorem ss_point (A0 : S100000x128.Idx → EReal) (A1 : S128x64.Idx → EReal) (A2 : S1x64.Idx → EReal)
    (A3 : S100000x1.Idx → EReal)
    (x0 : Vec Ideal S4000x128 .f32) (x1 : Vec Ideal S128x64 .f32) (x2 : Vec Ideal S1x64 .f32)
    (x3 : Vec Ideal S4000x1 .f32) (n : Fin 100000) (r : Fin 4000) (q : Fin 64)
    (h0 : row x0 r = row A0 n) (h1 : x1 = A1) (h2 : x2 = A2)
    (h3 : x3 (ix2 r (0 : Fin 1)) = A3 (ix2 n (0 : Fin 1))) :
    k0_pay4 (F := Ideal) x0 x1 x2 x3 (ix2 r q) = ssArr A0 A1 A2 A3 (ix2 n q) := by
  rw [pay4_apply, ssArr_apply, h0, h1, h2, h3]
  rfl

/-! ## Where each window's block sits in its array

  The grid is one axis of 25 points. At point t the row windows (the row array, the column array, both
  results) are at block (t, 0): rows 4000 t … 4000 t + 3999; the matrix and the bias row are at block (0, 0):
  the whole array. -/

theorem hz : (![0, 0] : Fin 2 → Nat) = fun _ => 0 := funext fun a => by fin_cases a <;> rfl

/-- The printed index maps, decided once over the grid. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 25 :=
  lt_of_lt_of_eq t.isLt (show cfg0.N = 25 from N_0)

section Blocks
variable (V : (c : Dev nD) → (b : Ref sig .tc) → Buf (Elt Ideal) ((c : Thread nD τ).loc b))

/-- The row window's block at point t, entry x, is the row array's entry 4000 t rows further down. -/
theorem blk0_apply (c : Dev nD) (t : Fin cfg0.N) (x : S4000x128.Idx) (k : S100000x128.Idx)
    (hk0 : (k 0).val = 4000 * t.val + (x 0).val) (hk1 : (k 1).val = (x 1).val) :
    (iblk0 (F := Ideal) V c 0 t : Vec Ideal S4000x128 .f32) x = (V c main_arg0 : S100000x128.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 4000 + 1 * (x 0).val = (k 0).val; rw [e0, hk0]; omega
  | ⟨1, _⟩ => show win0_0.index t (1 : Fin 2) * 128 + 1 * (x 1).val = (k 1).val; rw [e1, hk1]; omega

/-- The matrix window's block is the whole matrix at every point. -/
theorem blk1_eq (c : Dev nD) (t : Fin cfg0.N) :
    (iblk0 (F := Ideal) V c 1 t : Vec Ideal S128x64 .f32) = (V c main_arg1 : S128x64.Idx → EReal) := by
  obtain ⟨-, -, e0, e1, -⟩ := idx_facts t
  funext x
  unfold iblk0
  rw [View.read_apply]
  show V c main_arg1 _ = V c main_arg1 _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 64 + 1 * (x 1).val = (x 1).val; rw [e1]; omega

/-- The bias window's block is the whole bias row at every point. -/
theorem blk2_eq (c : Dev nD) (t : Fin cfg0.N) :
    (iblk0 (F := Ideal) V c 2 t : Vec Ideal S1x64 .f32) = (V c main_v9 : S1x64.Idx → EReal) := by
  obtain ⟨-, -, -, -, e0, e1, -⟩ := idx_facts t
  funext x
  unfold iblk0
  rw [View.read_apply]
  show V c main_v9 _ = V c main_v9 _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 64 + 1 * (x 1).val = (x 1).val; rw [e1]; omega

/-- The column window's block at point t, entry x, is the column array's entry 4000 t rows further down. -/
theorem blk3_apply (c : Dev nD) (t : Fin cfg0.N) (x : S4000x1.Idx) (k : S100000x1.Idx)
    (hk0 : (k 0).val = 4000 * t.val + (x 0).val) (hk1 : (k 1).val = (x 1).val) :
    (iblk0 (F := Ideal) V c 3 t : Vec Ideal S4000x1 .f32) x = (V c main_v8 : S100000x1.Idx → EReal) k := by
  obtain ⟨-, -, -, -, -, -, e0, e1, -⟩ := idx_facts t
  unfold iblk0
  rw [View.read_apply]
  show V c main_v8 _ = V c main_v8 _
  congr 1
  funext a
  apply Fin.ext
  match a with
  | ⟨0, _⟩ => show win0_3.index t (0 : Fin 2) * 4000 + 1 * (x 0).val = (k 0).val; rw [e0, hk0]; omega
  | ⟨1, _⟩ => show win0_3.index t (1 : Fin 2) * 1 + 1 * (x 1).val = (k 1).val; rw [e1, hk1]; omega

/-! ## What each point writes back, and the arrays after the region

  Point t writes its result block to rows 4000 t … 4000 t + 3999 of the result array. Entry (r, q) of the block
  is the body's result at (r, q), computed from the blocks of the four inputs at point t, which are rows of the
  input arrays at the same offset; so the block is the array function restricted to those rows. The 25 blocks
  cover the 100000 rows: row n is in the block of point n / 4000. -/

/-- Entry y of a result block at point t is entry (4000 t + y 0, y 1) of the result array. -/
theorem emb4 (t : Fin cfg0.N) (y : S4000x64.Idx) (k : S100000x64.Idx)
    (hk0 : (k 0).val = 4000 * t.val + (y 0).val) (hk1 : (k 1).val = (y 1).val) :
    ((cfg0.win 4).blk t).view.emb y = k := by
  obtain ⟨-, -, -, -, -, -, -, -, e0, e1, -⟩ := idx_facts t
  funext a
  apply Fin.ext
  match a with
  | ⟨0, _⟩ => show win0_4.index t (0 : Fin 2) * 4000 + 1 * (y 0).val = (k 0).val; rw [e0, hk0]; omega
  | ⟨1, _⟩ => show win0_4.index t (1 : Fin 2) * 64 + 1 * (y 1).val = (k 1).val; rw [e1, hk1]; omega

theorem emb5 (t : Fin cfg0.N) (y : S4000x64.Idx) (k : S100000x64.Idx)
    (hk0 : (k 0).val = 4000 * t.val + (y 0).val) (hk1 : (k 1).val = (y 1).val) :
    ((cfg0.win 5).blk t).view.emb y = k := by
  obtain ⟨-, -, -, -, -, -, -, -, -, -, e0, e1⟩ := idx_facts t
  funext a
  apply Fin.ext
  match a with
  | ⟨0, _⟩ => show win0_5.index t (0 : Fin 2) * 4000 + 1 * (y 0).val = (k 0).val; rw [e0, hk0]; omega
  | ⟨1, _⟩ => show win0_5.index t (1 : Fin 2) * 64 + 1 * (y 1).val = (k 1).val; rw [e1, hk1]; omega

/-- What point t writes back to the first result array is block t of the array function. -/
theorem flushed4_eq (c : Dev nD) (t : Fin cfg0.N) :
    (dat0 (F := Ideal) V c).flushed 4 t
      = ((cfg0.win 4).blk t).view.read (Elt Ideal)
          (hsArr (V c main_arg0 : S100000x128.Idx → EReal) (V c main_arg1 : S128x64.Idx → EReal)
            (V c main_v9 : S1x64.Idx → EReal) (V c main_v8 : S100000x1.Idx → EReal)) := by
  show (cfg0.win 4).cut (grid0.coords t) ((dat0 (F := Ideal) V c).after 4 t) = _
  rw [after0_4]
  unfold out0_4
  rw [View.canon_unit_zero hz]
  simp only [View.ld_unit_zero (S := S4000x128) hz, View.ld_unit_zero (S := S128x64) hz,
    View.ld_unit_zero (S := S1x64) hz, View.ld_unit_zero (S := S4000x1) hz]
  refine funext fun (y : S4000x64.Idx) => ?_
  show k0_pay3 (F := Ideal) (iblk0 V c 0 t) (iblk0 V c 1 t) (iblk0 V c 2 t) (iblk0 V c 3 t) y
      = hsArr (V c main_arg0 : S100000x128.Idx → EReal) (V c main_arg1 : S128x64.Idx → EReal)
          (V c main_v9 : S1x64.Idx → EReal) (V c main_v8 : S100000x1.Idx → EReal) (((cfg0.win 4).blk t).view.emb y)
  obtain ⟨r, q, rfl⟩ : ∃ (r : Fin 4000) (q : Fin 64), y = ix2 r q := ⟨y 0, y 1, eq_ix2 y⟩
  have ht := point_lt t
  have hn : 4000 * t.val + r.val < 100000 := by have := r.isLt; omega
  rw [emb4 t (ix2 r q) (ix2 ⟨4000 * t.val + r.val, hn⟩ q) rfl rfl]
  refine hs_point _ _ _ _ (iblk0 V c 0 t) (iblk0 V c 1 t) (iblk0 V c 2 t) (iblk0 V c 3 t)
    ⟨4000 * t.val + r.val, hn⟩ r q ?_ (blk1_eq V c t) (blk2_eq V c t) ?_
  · funext j
    exact blk0_apply V c t (ix2 r j) (ix2 ⟨4000 * t.val + r.val, hn⟩ j) rfl rfl
  · exact blk3_apply V c t (ix2 r (0 : Fin 1)) (ix2 ⟨4000 * t.val + r.val, hn⟩ (0 : Fin 1)) rfl rfl

/-- What point t writes back to the second result array is block t of the array function. -/
theorem flushed5_eq (c : Dev nD) (t : Fin cfg0.N) :
    (dat0 (F := Ideal) V c).flushed 5 t
      = ((cfg0.win 5).blk t).view.read (Elt Ideal)
          (ssArr (V c main_arg0 : S100000x128.Idx → EReal) (V c main_arg1 : S128x64.Idx → EReal)
            (V c main_v9 : S1x64.Idx → EReal) (V c main_v8 : S100000x1.Idx → EReal)) := by
  show (cfg0.win 5).cut (grid0.coords t) ((dat0 (F := Ideal) V c).after 5 t) = _
  rw [after0_5]
  unfold out0_5
  rw [View.canon_unit_zero hz]
  simp only [View.ld_unit_zero (S := S4000x128) hz, View.ld_unit_zero (S := S128x64) hz,
    View.ld_unit_zero (S := S1x64) hz, View.ld_unit_zero (S := S4000x1) hz]
  refine funext fun (y : S4000x64.Idx) => ?_
  show k0_pay4 (F := Ideal) (iblk0 V c 0 t) (iblk0 V c 1 t) (iblk0 V c 2 t) (iblk0 V c 3 t) y
      = ssArr (V c main_arg0 : S100000x128.Idx → EReal) (V c main_arg1 : S128x64.Idx → EReal)
          (V c main_v9 : S1x64.Idx → EReal) (V c main_v8 : S100000x1.Idx → EReal) (((cfg0.win 5).blk t).view.emb y)
  obtain ⟨r, q, rfl⟩ : ∃ (r : Fin 4000) (q : Fin 64), y = ix2 r q := ⟨y 0, y 1, eq_ix2 y⟩
  have ht := point_lt t
  have hn : 4000 * t.val + r.val < 100000 := by have := r.isLt; omega
  rw [emb5 t (ix2 r q) (ix2 ⟨4000 * t.val + r.val, hn⟩ q) rfl rfl]
  refine ss_point _ _ _ _ (iblk0 V c 0 t) (iblk0 V c 1 t) (iblk0 V c 2 t) (iblk0 V c 3 t)
    ⟨4000 * t.val + r.val, hn⟩ r q ?_ (blk1_eq V c t) (blk2_eq V c t) ?_
  · funext j
    exact blk0_apply V c t (ix2 r j) (ix2 ⟨4000 * t.val + r.val, hn⟩ j) rfl rfl
  · exact blk3_apply V c t (ix2 r (0 : Fin 1)) (ix2 ⟨4000 * t.val + r.val, hn⟩ (0 : Fin 1)) rfl rfl

/-- An index of a result array is in point t's block iff each coordinate is in the block's range on its axis. -/
theorem mem_blk4 (t : Fin cfg0.N) (i : S100000x64.Idx) :
    i ∈ ((cfg0.win 4).blk t).view.set ↔ ∀ a : Fin 2, win0_4.index t a * S4000x64.size a ≤ (i a).val
      ∧ (i a).val < win0_4.index t a * S4000x64.size a + S4000x64.size a := by
  show i ∈ ((View.whole main_v10_0).slice (win0_4.rect t)).set ↔ _
  rw [View.set_slice_whole, Rect.mem_set_unit]
  exact Iff.rfl

theorem mem_blk5 (t : Fin cfg0.N) (i : S100000x64.Idx) :
    i ∈ ((cfg0.win 5).blk t).view.set ↔ ∀ a : Fin 2, win0_5.index t a * S4000x64.size a ≤ (i a).val
      ∧ (i a).val < win0_5.index t a * S4000x64.size a + S4000x64.size a := by
  show i ∈ ((View.whole main_v10_1).slice (win0_5.rect t)).set ↔ _
  rw [View.set_slice_whole, Rect.mem_set_unit]
  exact Iff.rfl

/-- Row n of the first result array is written back by point n / 4000. -/
theorem cover4 (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 25 := N_0
  have hlt : (i 0).val / 4000 < cfg0.N := by rw [hN]; omega
  obtain ⟨-, -, -, -, -, -, -, -, e0, e1, -⟩ := idx_facts ⟨(i 0).val / 4000, hlt⟩
  refine ⟨⟨(i 0).val / 4000, hlt⟩, flush0_4 _, ?_⟩
  rw [mem_blk4]
  intro a
  match a with
  | ⟨0, _⟩ =>
    show win0_4.index ⟨(i 0).val / 4000, hlt⟩ (0 : Fin 2) * 4000 ≤ (i 0).val
      ∧ (i 0).val < win0_4.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_4.index ⟨(i 0).val / 4000, hlt⟩ (1 : Fin 2) * 64 ≤ (i 1).val
      ∧ (i 1).val < win0_4.index ⟨(i 0).val / 4000, hlt⟩ (1 : Fin 2) * 64 + 64
    rw [e1]
    omega

/-- Row n of the second result array is written back by point n / 4000. -/
theorem cover5 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 25 := N_0
  have hlt : (i 0).val / 4000 < cfg0.N := by rw [hN]; omega
  obtain ⟨-, -, -, -, -, -, -, -, -, -, e0, e1⟩ := idx_facts ⟨(i 0).val / 4000, hlt⟩
  refine ⟨⟨(i 0).val / 4000, hlt⟩, flush0_5 _, ?_⟩
  rw [mem_blk5]
  intro a
  match a with
  | ⟨0, _⟩ =>
    show win0_5.index ⟨(i 0).val / 4000, hlt⟩ (0 : Fin 2) * 4000 ≤ (i 0).val
      ∧ (i 0).val < win0_5.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_5.index ⟨(i 0).val / 4000, hlt⟩ (1 : Fin 2) * 64 ≤ (i 1).val
      ∧ (i 1).val < win0_5.index ⟨(i 0).val / 4000, hlt⟩ (1 : Fin 2) * 64 + 64
    rw [e1]
    omega

/-- After the region the first result array is the dense layer's rows, each scaled by the guarded reciprocal
    square root of its row's entry of the column array. -/
theorem final4 (c : Dev nD) :
    (dat0 (F := Ideal) V c).arrAt 4 cfg0.N
      = hsArr (V c main_arg0 : S100000x128.Idx → EReal) (V c main_arg1 : S128x64.Idx → EReal)
          (V c main_v9 : S1x64.Idx → EReal) (V c main_v8 : S100000x1.Idx → EReal) :=
  (dat0 (F := Ideal) V c).arrAt_eq_of_cover 4 _ (fun t _ => flushed4_eq V c t) cover4

/-- After the region the second result array is the dense layer's rows, each scaled by its row's entry of the
    column array. -/
theorem final5 (c : Dev nD) :
    (dat0 (F := Ideal) V c).arrAt 5 cfg0.N
      = ssArr (V c main_arg0 : S100000x128.Idx → EReal) (V c main_arg1 : S128x64.Idx → EReal)
          (V c main_v9 : S1x64.Idx → EReal) (V c main_v8 : S100000x1.Idx → EReal) :=
  (dat0 (F := Ideal) V c).arrAt_eq_of_cover 5 _ (fun t _ => flushed5_eq V c t) cover5

end Blocks

end Cert.KernelIdeal.TransformBlocks

end
-- ==== Proof.CombineBlocks.lean ====
/-
  The second region (the lane-paired combine and normalisation), read as one function of whole arrays, on the
  extended reals.

  Every point t of the 25-point grid works on rows 2000 t … 2000 t + 1999 of three arrays (two [50000, 128] arrays of
  gathered and own terms, one [50000, 2] array of per-node numbers, a row holding two nodes) and on the one row of
  each of three [1, 128] parameter arrays, and writes rows 2000 t … 2000 t + 1999 of the result. Entry (r, l) of the
  block it writes depends on entry (r, l) of the two wide blocks, on entry (r, 0) or (r, 1) of the two-column block
  (column 0 for the lanes below 64, column 1 for the others), and on entry (0, l) of the three parameter rows:
      (((1/2 · g) · a + 1/2 · b) − mean) · scale + shift,   g the guarded reciprocal square root of the column entry.
  The steps: the stored payload at an index (broadcasts of a column over lanes and of a row over rows, a lane-number
  test, pointwise arithmetic); the two one-column loads of the two-column block; each window's block as entries of
  its array (block index × block size + coordinate, the index maps decided once over the grid); what a point writes
  back as a block of the whole-array function; the blocks cover the array (row p lies in the block of point
  p / 2000), so the array ends holding that function.
-/
import proofs.«133288_j33552284516502_2_alg».proof.Proof.Gen.KernelIdeal.Frame
import proofs.«133288_j33552284516502_2_alg».proof.Proof.BlockSpec
import proofs.«133288_j33552284516502_2_alg».proof.Proof.LibBlockRows
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.CombineBlocks

open Cert.KernelIdeal Cert.KernelIdeal.Gen Cert.BlockSpec

/-! ## The body's payload at an index -/

/-- Lane `l` of 128, as a 32-bit word, is signed-less-than 64 exactly when `l < 64`. -/
theorem lane_lt (l : Fin 128) : IntOp.cmpi .slt (BitVec.ofNat 32 l.val) 64#32 = if l.val < 64 then 1#1 else 0#1 := by
  revert l; decide

/-- Entry (r, l) of what the body stores, from the blocks it loaded: the two gathered blocks at (r, l), the two
    per-row columns at (r, 0) (which of them by the half the lane is in), and the three parameter rows at (0, l). -/
theorem pay_apply (v0 v2 : Vec Ideal S2000x128 .f32) (v4 v6 : Vec Ideal S2000x1 .f32) (v32 v36 v40 : Vec Ideal S1x128 .f32)
    (r : Fin 2000) (l : Fin 128) :
    k1_pay1 (k1_pay2 v0 v2 v4 v6 v32 v36) v40 (ix2 r l)
      = (((half * (if l.val < 64 then invg (v4 (ix2 r (0 : Fin 1))) else invg (v6 (ix2 r (0 : Fin 1))))) * v0 (ix2 r l)
            + half * v2 (ix2 r l)) - v32 (ix2 (0 : Fin 1) l)) * v36 (ix2 (0 : Fin 1) l) + v40 (ix2 (0 : Fin 1) l) := by
  unfold k1_pay1 k1_pay2
  simp only [shapeCast_self]
  simp only [addf_apply, mulf_apply, subf_apply, select_apply, broadcast_apply, cmpf_apply]
  rw [Cert.LibBlockRows.row_spread, Cert.LibBlockRows.row_spread, Cert.LibBlockRows.row_spread,
    Cert.LibBlockRows.column_spread, Cert.LibBlockRows.column_spread]
  have hc : cmpi CmpIPredicate.slt (iota Kind.tc S2000x128 32 [1] iota_S2000x128_d1_w32) (broadcast S2000x128 64#32) (ix2 r l)
      = if l.val < 64 then 1#1 else 0#1 := by
    show IntOp.cmpi .slt (iota Kind.tc S2000x128 32 [1] iota_S2000x128_d1_w32 (ix2 r l)) 64#32 = _
    rw [iota_single_apply]
    exact lane_lt l
  rw [hc]
  by_cases h : l.val < 64
  · rw [if_pos h, if_pos h, select_one]; rfl
  · rw [if_neg h, if_neg h, select_zero]; rfl

/-! ## The two column loads of the two-column block -/

/-- The load of column 0 of a [2000, 2] block reads, at (r, 0), the block at (r, 0). -/
theorem ld_col0 (x2 : Vec Ideal S2000x2 .f32) (r : Fin 2000) :
    (View.ld x2 r1_1 : Vec Ideal S2000x1 .f32) (ix2 r (0 : Fin 1)) = x2 (ix2 r (0 : Fin 2)) := by
  show x2 (r1_1.idx (ix2 r (0 : Fin 1))) = x2 (ix2 r (0 : Fin 2))
  congr 1
  funext a; apply Fin.ext
  match a with
  | ⟨0, _⟩ => show 0 + 1 * r.val = r.val; omega
  | ⟨1, _⟩ => rfl

/-- The load of column 1 reads, at (r, 0), the block at (r, 1). -/
theorem ld_col1 (x2 : Vec Ideal S2000x2 .f32) (r : Fin 2000) :
    (View.ld x2 r1_2 : Vec Ideal S2000x1 .f32) (ix2 r (0 : Fin 1)) = x2 (ix2 r (1 : Fin 2)) := by
  show x2 (r1_2.idx (ix2 r (0 : Fin 1))) = x2 (ix2 r (1 : Fin 2))
  congr 1
  funext a; apply Fin.ext
  match a with
  | ⟨0, _⟩ => show 0 + 1 * r.val = r.val; omega
  | ⟨1, _⟩ => rfl

/-! ## The index maps, decided over the grid -/

theorem hz : (![0, 0] : Fin 2 → Nat) = fun _ => 0 := funext fun a => by fin_cases a <;> rfl

/-- The grid has 25 points. -/
theorem t_lt (t : Fin cfg1.N) : t.val < 25 := lt_of_lt_of_eq t.isLt N_1

/-- Windows 0, 1, 2 and the output window 6 sit at block (t, 0) at point t; the three parameter rows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row r of the block at point t is row 2000 t + r of the array. -/
def arow (t : Fin cfg1.N) (r : Fin 2000) : Fin 50000 :=
  ⟨2000 * t.val + r.val, by have := t_lt t; have := r.isLt; omega⟩

section Blocks

variable (V : (c : Dev nD) → (b : Ref sig .tc) → Buf (Elt Ideal) ((c : Thread nD τ).loc b))

/-! ## Each window's block as entries of its array -/

theorem blk0 (c : Dev nD) (t : Fin cfg1.N) (r : Fin 2000) (l : Fin 128) :
    (iblk1 V c 0 t : Vec Ideal S2000x128 .f32) (ix2 r l) = (V c main_v22 : S50000x128.Idx → Elt Ideal .f32) (ix2 (arow t r) l) := by
  obtain ⟨e0, e1, -⟩ := idx_facts t
  unfold iblk1
  rw [View.read_apply]
  show V c main_v22 _ = V c main_v22 _
  congr 1
  funext a; apply Fin.ext
  match a with
  | ⟨0, _⟩ => show win1_0.index t (0 : Fin 2) * 2000 + 1 * r.val = 2000 * t.val + r.val; rw [e0]; omega
  | ⟨1, _⟩ => show win1_0.index t (1 : Fin 2) * 128 + 1 * l.val = l.val; rw [e1]; omega

theorem blk1 (c : Dev nD) (t : Fin cfg1.N) (r : Fin 2000) (l : Fin 128) :
    (iblk1 V c 1 t : Vec Ideal S2000x128 .f32) (ix2 r l) = (V c main_v23 : S50000x128.Idx → Elt Ideal .f32) (ix2 (arow t r) l) := by
  obtain ⟨-, -, e0, e1, -⟩ := idx_facts t
  unfold iblk1
  rw [View.read_apply]
  show V c main_v23 _ = V c main_v23 _
  congr 1
  funext a; apply Fin.ext
  match a with
  | ⟨0, _⟩ => show win1_1.index t (0 : Fin 2) * 2000 + 1 * r.val = 2000 * t.val + r.val; rw [e0]; omega
  | ⟨1, _⟩ => show win1_1.index t (1 : Fin 2) * 128 + 1 * l.val = l.val; rw [e1]; omega

theorem blk2 (c : Dev nD) (t : Fin cfg1.N) (r : Fin 2000) (k : Fin 2) :
    (iblk1 V c 2 t : Vec Ideal S2000x2 .f32) (ix2 r k) = (V c main_v21 : S50000x2.Idx → Elt Ideal .f32) (ix2 (arow t r) k) := by
  obtain ⟨-, -, -, -, e0, e1, -⟩ := idx_facts t
  unfold iblk1
  rw [View.read_apply]
  show V c main_v21 _ = V c main_v21 _
  congr 1
  funext a; apply Fin.ext
  match a with
  | ⟨0, _⟩ => show win1_2.index t (0 : Fin 2) * 2000 + 1 * r.val = 2000 * t.val + r.val; rw [e0]; omega
  | ⟨1, _⟩ => show win1_2.index t (1 : Fin 2) * 2 + 1 * k.val = k.val; rw [e1]; omega

theorem blk3 (c : Dev nD) (t : Fin cfg1.N) (l : Fin 128) :
    (iblk1 V c 3 t : Vec Ideal S1x128 .f32) (ix2 (0 : Fin 1) l) = (V c main_v31 : S1x128.Idx → Elt Ideal .f32) (ix2 (0 : Fin 1) l) := by
  obtain ⟨-, -, -, -, -, -, e0, e1, -⟩ := idx_facts t
  unfold iblk1
  rw [View.read_apply]
  show V c main_v31 _ = V c main_v31 _
  congr 1
  funext a; apply Fin.ext
  match a with
  | ⟨0, _⟩ => show win1_3.index t (0 : Fin 2) * 1 + 1 * 0 = 0; rw [e0]
  | ⟨1, _⟩ => show win1_3.index t (1 : Fin 2) * 128 + 1 * l.val = l.val; rw [e1]; omega

theorem blk4 (c : Dev nD) (t : Fin cfg1.N) (l : Fin 128) :
    (iblk1 V c 4 t : Vec Ideal S1x128 .f32) (ix2 (0 : Fin 1) l) = (V c main_v35 : S1x128.Idx → Elt Ideal .f32) (ix2 (0 : Fin 1) l) := by
  obtain ⟨-, -, -, -, -, -, -, -, e0, e1, -⟩ := idx_facts t
  unfold iblk1
  rw [View.read_apply]
  show V c main_v35 _ = V c main_v35 _
  congr 1
  funext a; apply Fin.ext
  match a with
  | ⟨0, _⟩ => show win1_4.index t (0 : Fin 2) * 1 + 1 * 0 = 0; rw [e0]
  | ⟨1, _⟩ => show win1_4.index t (1 : Fin 2) * 128 + 1 * l.val = l.val; rw [e1]; omega

theorem blk5 (c : Dev nD) (t : Fin cfg1.N) (l : Fin 128) :
    (iblk1 V c 5 t : Vec Ideal S1x128 .f32) (ix2 (0 : Fin 1) l) = (V c main_v39 : S1x128.Idx → Elt Ideal .f32) (ix2 (0 : Fin 1) l) := by
  obtain ⟨-, -, -, -, -, -, -, -, -, -, e0, e1, -⟩ := idx_facts t
  unfold iblk1
  rw [View.read_apply]
  show V c main_v39 _ = V c main_v39 _
  congr 1
  funext a; apply Fin.ext
  match a with
  | ⟨0, _⟩ => show win1_5.index t (0 : Fin 2) * 1 + 1 * 0 = 0; rw [e0]
  | ⟨1, _⟩ => show win1_5.index t (1 : Fin 2) * 128 + 1 * l.val = l.val; rw [e1]; omega

/-- Where entry (r, l) of the output's block at point t sits in the output array. -/
theorem emb6 (t : Fin cfg1.N) (r : Fin 2000) (l : Fin 128) :
    ((cfg1.win 6).blk t).view.emb (ix2 r l) = (ix2 (arow t r) l : S50000x128.Idx) := by
  obtain ⟨-, -, -, -, -, -, -, -, -, -, -, -, e0, e1⟩ := idx_facts t
  funext a; apply Fin.ext
  match a with
  | ⟨0, _⟩ => show win1_6.index t (0 : Fin 2) * 2000 + 1 * r.val = 2000 * t.val + r.val; rw [e0]; omega
  | ⟨1, _⟩ => show win1_6.index t (1 : Fin 2) * 128 + 1 * l.val = l.val; rw [e1]; omega

/-! ## What a point writes back, and the whole array -/

/-- The whole-array function the region computes, of the six arrays as the region finds them. -/
abbrev G6 (c : Dev nD) : S50000x128.Idx → EReal :=
  out2Arr (V c main_v22 : S50000x128.Idx → Elt Ideal .f32) (V c main_v23 : S50000x128.Idx → Elt Ideal .f32)
    (V c main_v21 : S50000x2.Idx → Elt Ideal .f32) (V c main_v31 : S1x128.Idx → Elt Ideal .f32)
    (V c main_v35 : S1x128.Idx → Elt Ideal .f32) (V c main_v39 : S1x128.Idx → Elt Ideal .f32)

/-- What point t writes back is block t of that function. -/
theorem flushed6_eq (c : Dev nD) (t : Fin cfg1.N) :
    (dat1 (F := Ideal) V c).flushed 6 t = ((cfg1.win 6).blk t).view.read (Elt Ideal) (G6 V c) := by
  show (cfg1.win 6).cut (grid1.coords t) ((dat1 (F := Ideal) V c).after 6 t) = _
  rw [after1_6]
  unfold out1_6
  rw [View.canon_unit_zero hz]
  simp only [View.ld_unit_zero (S := S2000x128) hz, View.ld_unit_zero (S := S1x128) hz]
  funext j
  obtain ⟨r, l, rfl⟩ : ∃ (r : Fin 2000) (l : Fin 128), j = ix2 r l := ⟨j 0, j 1, eq_ix2 j⟩
  show k1_pay1 (k1_pay2 (iblk1 V c 0 t) (iblk1 V c 1 t) (View.ld (iblk1 V c 2 t) r1_1) (View.ld (iblk1 V c 2 t) r1_2)
        (iblk1 V c 5 t) (iblk1 V c 3 t)) (iblk1 V c 4 t) (ix2 r l)
      = G6 V c (((cfg1.win 6).blk t).view.emb (ix2 r l))
  refine (pay_apply _ _ _ _ _ _ _ r l).trans ?_
  rw [ld_col0, ld_col1, blk0 V c t r l, blk1 V c t r l, blk2 V c t r 0, blk2 V c t r 1, blk3 V c t l, blk4 V c t l,
    blk5 V c t l, emb6 t r l]
  exact (out2Arr_apply _ _ _ _ _ _ (arow t r) l).symm

/-- An index of the output array is in point t's block iff each coordinate is in the block's range. -/
theorem mem_blk6 (t : Fin cfg1.N) (i : S50000x128.Idx) :
    i ∈ ((cfg1.win 6).blk t).view.set ↔ ∀ a : Fin 2, win1_6.index t a * S2000x128.size a ≤ (i a).val
        ∧ (i a).val < win1_6.index t a * S2000x128.size a + S2000x128.size a := by
  show i ∈ ((View.whole main_v40).slice (win1_6.rect t)).set ↔ _
  rw [View.set_slice_whole, Rect.mem_set_unit]
  exact Iff.rfl

/-- Row p of the output array is in the block of point p / 2000. -/
theorem cover6 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  let t : Fin cfg1.N := ⟨(i 0).val / 2000, by rw [show cfg1.N = 25 from N_1]; omega⟩
  obtain ⟨-, -, -, -, -, -, -, -, -, -, -, -, e0, e1⟩ := idx_facts t
  have ht : t.val = (i 0).val / 2000 := rfl
  refine ⟨t, flush1_6 t, ?_⟩
  rw [mem_blk6]
  intro a
  match a with
  | ⟨0, _⟩ =>
    show win1_6.index t (0 : Fin 2) * 2000 ≤ (i 0).val ∧ (i 0).val < win1_6.index t (0 : Fin 2) * 2000 + 2000
    rw [e0, ht]; omega
  | ⟨1, _⟩ =>
    show win1_6.index t (1 : Fin 2) * 128 ≤ (i 1).val ∧ (i 1).val < win1_6.index t (1 : Fin 2) * 128 + 128
    rw [e1]; omega

/-- After the region the output array is the combine-and-normalise function of the six input arrays. -/
theorem final6 (c : Dev nD) :
    (dat1 (F := Ideal) V c).arrAt 6 cfg1.N
      = out2Arr (V c main_v22 : S50000x128.Idx → Elt Ideal .f32) (V c main_v23 : S50000x128.Idx → Elt Ideal .f32)
          (V c main_v21 : S50000x2.Idx → Elt Ideal .f32) (V c main_v31 : S1x128.Idx → Elt Ideal .f32)
          (V c main_v35 : S1x128.Idx → Elt Ideal .f32) (V c main_v39 : S1x128.Idx → Elt Ideal .f32) :=
  (dat1 (F := Ideal) V c).arrAt_eq_of_cover 6 (G6 V c) (fun t _ => flushed6_eq V c t) cover6

end Blocks

end Cert.KernelIdeal.CombineBlocks

end
-- ==== Proof.KGlue.lean ====
/-
  The kernel program's last buffer contents, followed back through the five stretches to the launch memory.

  Each stretch of host operations computes its buffers from the contents at its start; each kernel region replaces its
  output arrays by the whole-array functions of its input arrays and leaves every other buffer alone. Composing these
  gives the result buffer as the composition of stages of the argument arrays.
-/
import proofs.«133288_j33552284516502_2_alg».proof.Proof.Gen.KernelIdeal.Frame
import proofs.«133288_j33552284516502_2_alg».proof.Proof.KStages
import proofs.«133288_j33552284516502_2_alg».proof.Proof.TransformBlocks
import proofs.«133288_j33552284516502_2_alg».proof.Proof.CombineBlocks
import Idealize.ShloMosaic.Lib.StableHlo.Run
import Idealize.ShloMosaic.PureOps.Ideal

set_option maxRecDepth 16384

noncomputable section

namespace Cert.KernelIdeal.Glue

open Cert.KernelIdeal Cert.KernelIdeal.Gen Cert.BlockSpec Cert.KernelIdeal.Stages
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-! ## Before the first region -/

theorem W1_v1 (c : Dev nD) : W1 m ρ c (Proc.devRef .tc main_v1) = srcFlat (m ((c : Thread nD τ).loc main_arg7)) := by
  show StableHlo.after hostOps0 (W0 m ρ c) (Proc.devRef .tc main_v1) = _
  after_results
  rfl

theorem W1_v3 (c : Dev nD) : W1 m ρ c (Proc.devRef .tc main_v3) = dstFlat (m ((c : Thread nD τ).loc main_arg7)) := by
  show StableHlo.after hostOps0 (W0 m ρ c) (Proc.devRef .tc main_v3) = _
  after_results
  rfl

theorem W1_v8 (c : Dev nD) : W1 m ρ c (Proc.devRef .tc main_v8) = degCol (m ((c : Thread nD τ).loc main_arg7)) := by
  show StableHlo.after hostOps0 (W0 m ρ c) (Proc.devRef .tc main_v8) = _
  after_results
  rfl

theorem W1_v9 (c : Dev nD) : W1 m ρ c (Proc.devRef .tc main_v9) = biasRow (m ((c : Thread nD τ).loc main_arg2)) := by
  show StableHlo.after hostOps0 (W0 m ρ c) (Proc.devRef .tc main_v9) = _
  after_results
  rfl

theorem W1_arg0 (c : Dev nD) : W1 m ρ c (Proc.devRef .tc main_arg0) = (m ((c : Thread nD τ).loc main_arg0)) := by
  show StableHlo.after hostOps0 (W0 m ρ c) (Proc.devRef .tc main_arg0) = _
  after_results

theorem W1_arg1 (c : Dev nD) : W1 m ρ c (Proc.devRef .tc main_arg1) = (m ((c : Thread nD τ).loc main_arg1)) := by
  show StableHlo.after hostOps0 (W0 m ρ c) (Proc.devRef .tc main_arg1) = _
  after_results

theorem W1_arg3 (c : Dev nD) : W1 m ρ c (Proc.devRef .tc main_arg3) = (m ((c : Thread nD τ).loc main_arg3)) := by
  show StableHlo.after hostOps0 (W0 m ρ c) (Proc.devRef .tc main_arg3) = _
  after_results

theorem W1_arg4 (c : Dev nD) : W1 m ρ c (Proc.devRef .tc main_arg4) = (m ((c : Thread nD τ).loc main_arg4)) := by
  show StableHlo.after hostOps0 (W0 m ρ c) (Proc.devRef .tc main_arg4) = _
  after_results

theorem W1_arg5 (c : Dev nD) : W1 m ρ c (Proc.devRef .tc main_arg5) = (m ((c : Thread nD τ).loc main_arg5)) := by
  show StableHlo.after hostOps0 (W0 m ρ c) (Proc.devRef .tc main_arg5) = _
  after_results

theorem W1_arg6 (c : Dev nD) : W1 m ρ c (Proc.devRef .tc main_arg6) = (m ((c : Thread nD τ).loc main_arg6)) := by
  show StableHlo.after hostOps0 (W0 m ρ c) (Proc.devRef .tc main_arg6) = _
  after_results

/-! ## The first region -/

theorem W2_v10_0 (c : Dev nD) : W2 m ρ c (Proc.devRef .tc main_v10_0) = hsA (m ((c : Thread nD τ).loc main_arg0)) (m ((c : Thread nD τ).loc main_arg1)) (m ((c : Thread nD τ).loc main_arg2)) (m ((c : Thread nD τ).loc main_arg7)) := by
  refine ((W2_arr m ρ c 4).trans (TransformBlocks.final4 (V1 m ρ) c)).trans ?_
  show hsArr (W1 m ρ c (Proc.devRef .tc main_arg0)) (W1 m ρ c (Proc.devRef .tc main_arg1))
    (W1 m ρ c (Proc.devRef .tc main_v9)) (W1 m ρ c (Proc.devRef .tc main_v8)) = _
  rw [W1_arg0, W1_arg1, W1_v9, W1_v8]
  rfl

theorem W2_v10_1 (c : Dev nD) : W2 m ρ c (Proc.devRef .tc main_v10_1) = ssA (m ((c : Thread nD τ).loc main_arg0)) (m ((c : Thread nD τ).loc main_arg1)) (m ((c : Thread nD τ).loc main_arg2)) (m ((c : Thread nD τ).loc main_arg7)) := by
  refine ((W2_arr m ρ c 5).trans (TransformBlocks.final5 (V1 m ρ) c)).trans ?_
  show ssArr (W1 m ρ c (Proc.devRef .tc main_arg0)) (W1 m ρ c (Proc.devRef .tc main_arg1))
    (W1 m ρ c (Proc.devRef .tc main_v9)) (W1 m ρ c (Proc.devRef .tc main_v8)) = _
  rw [W1_arg0, W1_arg1, W1_v9, W1_v8]
  rfl

theorem W2_v1 (c : Dev nD) : W2 m ρ c (Proc.devRef .tc main_v1) = srcFlat (m ((c : Thread nD τ).loc main_arg7)) :=
  (W2_of_ne m ρ c main_v1 (by decide)).trans (W1_v1 m ρ c)

theorem W2_v3 (c : Dev nD) : W2 m ρ c (Proc.devRef .tc main_v3) = dstFlat (m ((c : Thread nD τ).loc main_arg7)) :=
  (W2_of_ne m ρ c main_v3 (by decide)).trans (W1_v3 m ρ c)

theorem W2_v8 (c : Dev nD) : W2 m ρ c (Proc.devRef .tc main_v8) = degCol (m ((c : Thread nD τ).loc main_arg7)) :=
  ((W2_arr m ρ c 3).trans (((dat0 (V1 m ρ) c).arrAt_in 3 rfl _).trans (A_eq0 (V1 m ρ) c 3))).trans (W1_v8 m ρ c)

theorem W2_arg3 (c : Dev nD) : W2 m ρ c (Proc.devRef .tc main_arg3) = (m ((c : Thread nD τ).loc main_arg3)) :=
  (W2_of_ne m ρ c main_arg3 (by decide)).trans (W1_arg3 m ρ c)

theorem W2_arg4 (c : Dev nD) : W2 m ρ c (Proc.devRef .tc main_arg4) = (m ((c : Thread nD τ).loc main_arg4)) :=
  (W2_of_ne m ρ c main_arg4 (by decide)).trans (W1_arg4 m ρ c)

theorem W2_arg5 (c : Dev nD) : W2 m ρ c (Proc.devRef .tc main_arg5) = (m ((c : Thread nD τ).loc main_arg5)) :=
  (W2_of_ne m ρ c main_arg5 (by decide)).trans (W1_arg5 m ρ c)

theorem W2_arg6 (c : Dev nD) : W2 m ρ c (Proc.devRef .tc main_arg6) = (m ((c : Thread nD τ).loc main_arg6)) :=
  (W2_of_ne m ρ c main_arg6 (by decide)).trans (W1_arg6 m ρ c)

/-! ## Between the regions -/

theorem W3_v22 (c : Dev nD) : W3 m ρ c (Proc.devRef .tc main_v22)
    = shapeCast S50000x128 (neigh (m ((c : Thread nD τ).loc main_arg0)) (m ((c : Thread nD τ).loc main_arg1)) (m ((c : Thread nD τ).loc main_arg2)) (m ((c : Thread nD τ).loc main_arg7))) shapeCasts_S100000x64_S50000x128 := by
  show StableHlo.after hostOps1 (W2 m ρ c) (Proc.devRef .tc main_v22) = _
  after_results
  rw [W2_v1, W2_v3, W2_v10_0]
  rfl

theorem W3_v23 (c : Dev nD) : W3 m ρ c (Proc.devRef .tc main_v23)
    = shapeCast S50000x128 (ssA (m ((c : Thread nD τ).loc main_arg0)) (m ((c : Thread nD τ).loc main_arg1)) (m ((c : Thread nD τ).loc main_arg2)) (m ((c : Thread nD τ).loc main_arg7))) shapeCasts_S100000x64_S50000x128 := by
  show StableHlo.after hostOps1 (W2 m ρ c) (Proc.devRef .tc main_v23) = _
  after_results
  rw [W2_v10_1]
  rfl

theorem W3_v21 (c : Dev nD) : W3 m ρ c (Proc.devRef .tc main_v21)
    = shapeCast S50000x2 (degCol (m ((c : Thread nD τ).loc main_arg7))) shapeCasts_S100000x1_S50000x2 := by
  show StableHlo.after hostOps1 (W2 m ρ c) (Proc.devRef .tc main_v21) = _
  after_results
  rw [W2_v8]
  rfl

theorem W3_v31 (c : Dev nD) : W3 m ρ c (Proc.devRef .tc main_v31) = tile (scaleVec (m ((c : Thread nD τ).loc main_arg3)) (m ((c : Thread nD τ).loc main_arg6))) := by
  show StableHlo.after hostOps1 (W2 m ρ c) (Proc.devRef .tc main_v31) = _
  after_results
  rw [W2_arg3, W2_arg6]
  rfl

theorem W3_v35 (c : Dev nD) : W3 m ρ c (Proc.devRef .tc main_v35) = tile (m ((c : Thread nD τ).loc main_arg4)) := by
  show StableHlo.after hostOps1 (W2 m ρ c) (Proc.devRef .tc main_v35) = _
  after_results
  rw [W2_arg4]
  rfl

theorem W3_v39 (c : Dev nD) : W3 m ρ c (Proc.devRef .tc main_v39) = tile (m ((c : Thread nD τ).loc main_arg5)) := by
  show StableHlo.after hostOps1 (W2 m ρ c) (Proc.devRef .tc main_v39) = _
  after_results
  rw [W2_arg5]
  rfl

/-! ## The second region and the last reshape -/

theorem W4_v40 (c : Dev nD) : W4 m ρ c (Proc.devRef .tc main_v40)
    = out2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W4_arr m ρ c 6).trans (CombineBlocks.final6 (V3 m ρ) c)).trans ?_
  show out2Arr (W3 m ρ c (Proc.devRef .tc main_v22)) (W3 m ρ c (Proc.devRef .tc main_v23)) (W3 m ρ c (Proc.devRef .tc main_v21))
    (W3 m ρ c (Proc.devRef .tc main_v31)) (W3 m ρ c (Proc.devRef .tc main_v35)) (W3 m ρ c (Proc.devRef .tc main_v39)) = _
  rw [W3_v22, W3_v23, W3_v21, W3_v31, W3_v35, W3_v39]
  rfl

/-- The result buffer after the run is the composition of stages of the launch contents of the arguments. -/
theorem result_eq (c : Dev nD) : W5 m ρ c (Proc.devRef .tc main_v41)
    = kout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v41) = _
  after_results
  rw [W4_v40]
  rfl

end Cert.KernelIdeal.Glue

end
-- ==== Proof.LibScatterRead.lean ====
/-
  A host scatter that overwrites with one constant, read at an index.

  The host scatter is a left fold over the update positions in row-major order: each position whose result index
  lies inside the operand replaces the operand's element there, and a position whose result index falls outside is
  dropped. When the combining function keeps the update and every update element is the same constant c, the order
  of the fold and repeated hits do not matter: the result at an index i is c if SOME update position lands on i, and
  the operand's element at i otherwise.

  Two index layouts are read here, both with one start index per update row, stored as a column [M, 1] of signed
  integers, and both scattering along the operand's leading axis: a vector [N] receiving scalars, and a matrix [N, B]
  receiving whole rows of B elements. In both, update row k lands on operand row r exactly when the signed start
  index of k equals r; so the set of rows that are hit is the same for the two layouts.
-/
import Idealize.ShloMosaic.PureOps
import Idealize.ShloMosaic.Lib.ValueIdx

noncomputable section

namespace Cert.ScatterRead

open Idealize.ShloMosaic Idealize.ShloMosaic.ValueIdx
open scoped Classical

variable {α : Type}

/-! ## The fold -/

/-- A left fold of steps, each of which either overwrites ONE index (the one `g n` names) with the constant `c` or
    does nothing, read at `i`: `c` if some step of the list names `i`, the initial function's value otherwise. -/
theorem foldl_overwrite {ι β : Type} (g : ι → Option β) (c : α) (step : (β → α) → ι → (β → α))
    (hstep : ∀ r n i, step r n i = if g n = some i then c else r i) (L : List ι) (x : β → α) (i : β) :
    (L.foldl step x) i = if ∃ n ∈ L, g n = some i then c else x i := by
  induction L generalizing x with
  | nil => simp
  | cons n L ih =>
    rw [List.foldl_cons, ih, hstep]
    by_cases h1 : ∃ n' ∈ L, g n' = some i
    · rw [if_pos h1, if_pos]
      obtain ⟨n', hn', e⟩ := h1
      exact ⟨n', List.mem_cons_of_mem _ hn', e⟩
    · rw [if_neg h1]
      by_cases h2 : g n = some i
      · rw [if_pos h2, if_pos]
        exact ⟨n, List.mem_cons_self, h2⟩
      · rw [if_neg h2, if_neg]
        rintro ⟨n', hn', e⟩
        rcases List.mem_cons.mp hn' with rfl | hn'
        · exact h2 e
        · exact h1 ⟨n', hn', e⟩

/-- THE SCATTER OF ONE CONSTANT READ AT AN INDEX: with the update kept and every update element `c`, the result at
    `i` is `c` where some update position's result index is `i`, and the operand's element elsewhere. -/
theorem scatter_const_apply {s si u : Shape} {w : ℕ} (d : ScatterDims s si u) (x : s.Idx → α) (idx : IVec si w)
    (upd : u.Idx → α) (c : α) (hupd : ∀ j, upd j = c) (i : s.Idx) :
    Host.scatter d (fun _ b => b) x idx upd i = if ∃ j : u.Idx, d.resultIdx? j idx = some i then c else x i := by
  unfold Host.scatter
  refine (foldl_overwrite (fun n => d.resultIdx? (u.rowMajor.symm n) idx) c _ ?_ _ x i).trans ?_
  · intro r n i'
    dsimp only
    cases h : d.resultIdx? (u.rowMajor.symm n) idx with
    | none => simp
    | some i0 =>
      dsimp only
      by_cases hi : i' = i0
      · subst hi; rw [if_pos rfl, if_pos rfl, hupd]
      · rw [if_neg hi, if_neg]
        intro e
        exact hi (Option.some.inj e).symm
  · by_cases h : ∃ j : u.Idx, d.resultIdx? j idx = some i
    · rw [if_pos h, if_pos]
      obtain ⟨j, hj⟩ := h
      exact ⟨u.rowMajor j, List.mem_finRange _, by rw [Equiv.symm_apply_apply]; exact hj⟩
    · rw [if_neg h, if_neg]
      rintro ⟨n, _, e⟩
      exact h ⟨_, e⟩

/-! ## When an update position lands on an index -/

/-- An update position's result index is `i` exactly when, on every axis of the operand, the window's start plus the
    coordinate inside the window is `i`'s coordinate (which, being a coordinate, is inside the operand). -/
theorem resultIdx?_eq_some_iff {s si u : Shape} {w : ℕ} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro e a
      have e1 := congrArg Fin.val (congrFun (Option.some.inj e) a)
      have := h a
      simp only at e1
      omega
    · intro e
      refine congrArg some (funext fun a => Fin.ext ?_)
      have := e a
      have := h a
      simp only
      omega
  · rename_i h
    constructor
    · intro e; cases e
    · intro e
      exfalso
      apply h
      intro a
      have := e a
      have := (i a).isLt
      omega

/-! ## A column of start indices scattering scalars into a vector -/

/-- The dimension numbers of `x.at[idx].set(v)` on a vector `[N]` with `M` scalar updates, the start indices a
    column `[M, 1]`: no window axis in the updates, the operand's one axis inserted and scattered. -/
abbrev vecDims (N M : ℕ) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem vecDims_start {N M w : ℕ} (wf) (j : (⟨1, ![M]⟩ : Shape).Idx) (idx : IVec ⟨2, ![M, 1]⟩ w) :
    (vecDims N M wf).start j idx 0 = (idx (ix2 (j 0) (0 : Fin 1))).toInt := by
  unfold ScatterDims.start
  rw [dif_pos (show (0 : Fin 1) ∈ (vecDims N M wf).scatterDimsToOperandDims from List.mem_singleton.mpr rfl)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem vecDims_window {N M : ℕ} (wf) (j : (⟨1, ![M]⟩ : Shape).Idx) : (vecDims N M wf).window j 0 = 0 := by
  unfold ScatterDims.window
  rw [dif_neg (show ¬ (0 : Fin 1) ∈ (vecDims N M wf).sKept by
    show ¬ (0 : Fin 1) ∈ ([] : List (Fin 1)); simp)]

/-- Update `j` lands on element `i` of the vector exactly when its signed start index is `i`. -/
theorem vecDims_lands {N M w : ℕ} (wf) (j : (⟨1, ![M]⟩ : Shape).Idx) (idx : IVec ⟨2, ![M, 1]⟩ w) (i : (⟨1, ![N]⟩ : Shape).Idx) :
    (vecDims N M wf).resultIdx? j idx = some i ↔ (idx (ix2 (j 0) (0 : Fin 1))).toInt = ((i 0).val : ℤ) := by
  rw [resultIdx?_eq_some_iff]
  constructor
  · intro h
    have := h 0
    rw [vecDims_start, vecDims_window] at this
    simpa using this
  · intro h a
    obtain rfl : a = 0 := Subsingleton.elim _ _
    rw [vecDims_start, vecDims_window]
    simpa using h

/-! ## The same column scattering whole rows into a matrix -/

/-- The dimension numbers of `x.at[idx].set(v)` on a matrix `[N, B]` with `M` row updates `[M, B]`, the start
    indices a column `[M, 1]`: the updates' lane axis is the window, the operand's row axis inserted and scattered. -/
abbrev rowDims (N M B : ℕ) (wf : ScatterDims.WF ⟨2, ![N, B]⟩ ⟨2, ![M, 1]⟩ ⟨2, ![M, B]⟩ [1] [0] [0] 1) :
    ScatterDims ⟨2, ![N, B]⟩ ⟨2, ![M, 1]⟩ ⟨2, ![M, B]⟩ where
  updateWindowDims := [1]
  insertedWindowDims := [0]
  scatterDimsToOperandDims := [0]
  indexVectorDim := 1
  wf := wf

theorem rowDims_start0 {N M B w : ℕ} (wf) (j : (⟨2, ![M, B]⟩ : Shape).Idx) (idx : IVec ⟨2, ![M, 1]⟩ w) :
    (rowDims N M B wf).start j idx 0 = (idx (ix2 (j 0) (0 : Fin 1))).toInt := by
  unfold ScatterDims.start
  rw [dif_pos (show (0 : Fin 2) ∈ (rowDims N M B wf).scatterDimsToOperandDims from List.mem_singleton.mpr rfl)]
  have hsi : (rowDims N M B wf).siIdx j ⟨List.idxOf (0 : Fin 2) (rowDims N M B wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowDims_start1 {N M B w : ℕ} (wf) (j : (⟨2, ![M, B]⟩ : Shape).Idx) (idx : IVec ⟨2, ![M, 1]⟩ w) :
    (rowDims N M B wf).start j idx 1 = 0 := by
  unfold ScatterDims.start
  rw [dif_neg (show ¬ (1 : Fin 2) ∈ (rowDims N M B wf).scatterDimsToOperandDims by
    show ¬ (1 : Fin 2) ∈ ([0] : List (Fin 2)); decide)]

theorem rowDims_window0 {N M B : ℕ} (wf) (j : (⟨2, ![M, B]⟩ : Shape).Idx) : (rowDims N M B wf).window j 0 = 0 := by
  unfold ScatterDims.window
  rw [dif_neg (show ¬ (0 : Fin 2) ∈ (rowDims N M B wf).sKept by
    show ¬ (0 : Fin 2) ∈ ([1] : List (Fin 2)); decide)]

theorem rowDims_window1 {N M B : ℕ} (wf) (j : (⟨2, ![M, B]⟩ : Shape).Idx) : (rowDims N M B wf).window j 1 = (j 1).val := by
  unfold ScatterDims.window
  rw [dif_pos (show (1 : Fin 2) ∈ (rowDims N M B wf).sKept by
    show (1 : Fin 2) ∈ ([1] : List (Fin 2)); decide)]
  rfl

/-- Update element `(k, q)` lands on element `(r, q')` of the matrix exactly when the signed start index of row `k`
    is `r` and the lanes agree. -/
theorem rowDims_lands {N M B w : ℕ} (wf) (j : (⟨2, ![M, B]⟩ : Shape).Idx) (idx : IVec ⟨2, ![M, 1]⟩ w) (i : (⟨2, ![N, B]⟩ : Shape).Idx) :
    (rowDims N M B wf).resultIdx? j idx = some i
      ↔ (idx (ix2 (j 0) (0 : Fin 1))).toInt = ((i 0).val : ℤ) ∧ (j 1).val = (i 1).val := by
  rw [resultIdx?_eq_some_iff]
  constructor
  · intro h
    have h0 := h 0
    have h1 := h 1
    rw [rowDims_start0, rowDims_window0] at h0
    rw [rowDims_start1, rowDims_window1] at h1
    exact ⟨by simpa using h0, by simpa using h1⟩
  · rintro ⟨h0, h1⟩ a
    match a with
    | ⟨0, _⟩ =>
      show (rowDims N M B wf).start j idx 0 + ((rowDims N M B wf).window j 0 : ℤ) = ((i 0).val : ℤ)
      rw [rowDims_start0, rowDims_window0]; simpa using h0
    | ⟨1, _⟩ =>
      show (rowDims N M B wf).start j idx 1 + ((rowDims N M B wf).window j 1 : ℤ) = ((i 1).val : ℤ)
      rw [rowDims_start1, rowDims_window1]; simpa using h1

/-! ## The rows that are hit, and the two scatters read by them -/

/-- Row `r` is hit by the column of start indices: some update row's signed start index is `r`. -/
def Hit {M w : ℕ} (idx : IVec ⟨2, ![M, 1]⟩ w) (r : ℕ) : Prop :=
  ∃ k : Fin M, (idx (ix2 k (0 : Fin 1))).toInt = (r : ℤ)

/-- The vector scatter of one constant, at `r`: the constant if row `r` is hit, the operand's element otherwise. -/
theorem scatter_vec_apply {N M w : ℕ} (wf) (x : (⟨1, ![N]⟩ : Shape).Idx → α) (idx : IVec ⟨2, ![M, 1]⟩ w)
    (upd : (⟨1, ![M]⟩ : Shape).Idx → α) (c : α) (hupd : ∀ j, upd j = c) (r : Fin N) :
    Host.scatter (vecDims N M wf) (fun _ b => b) x idx upd (ix1 r) = if Hit idx r.val then c else x (ix1 r) := by
  rw [scatter_const_apply _ _ _ _ c hupd]
  by_cases h : Hit idx r.val
  · rw [if_pos h, if_pos]
    obtain ⟨k, hk⟩ := h
    exact ⟨ix1 k, (vecDims_lands wf _ idx _).mpr hk⟩
  · rw [if_neg h, if_neg]
    rintro ⟨j, hj⟩
    exact h ⟨j 0, (vecDims_lands wf j idx _).mp hj⟩

/-- The row scatter of one constant, at `(r, q)`: the constant if row `r` is hit, the operand's element otherwise. -/
theorem scatter_row_apply {N M B w : ℕ} (wf) (x : (⟨2, ![N, B]⟩ : Shape).Idx → α) (idx : IVec ⟨2, ![M, 1]⟩ w)
    (upd : (⟨2, ![M, B]⟩ : Shape).Idx → α) (c : α) (hupd : ∀ j, upd j = c) (r : Fin N) (q : Fin B) :
    Host.scatter (rowDims N M B wf) (fun _ b => b) x idx upd (ix2 r q) = if Hit idx r.val then c else x (ix2 r q) := by
  rw [scatter_const_apply _ _ _ _ c hupd]
  by_cases h : Hit idx r.val
  · rw [if_pos h, if_pos]
    obtain ⟨k, hk⟩ := h
    exact ⟨ix2 k q, (rowDims_lands wf _ idx _).mpr ⟨hk, rfl⟩⟩
  · rw [if_neg h, if_neg]
    rintro ⟨j, hj⟩
    exact h ⟨j 0, ((rowDims_lands wf j idx _).mp hj).1⟩

end Cert.ScatterRead

end
-- ==== Proof.LibScatterAddRead.lean ====
/-
  A host scatter that ADDS, read at an index, on the extended reals.

  On the extended reals the accumulating scatter has one value whatever the order of the additions: the operand's
  element plus the sum of the update elements whose result index is that element. Two index layouts are read here,
  both with one start index per update row stored as a column [M, 1] of signed integers, both scattering along the
  operand's leading axis: a vector [N] receiving scalars and a matrix [N, B] receiving whole rows. Update row k lands
  on operand row r exactly when the signed start index of k equals r (a start index outside [0, N) lands nowhere and
  is dropped), so in both layouts the sum runs over the SAME set of update rows
      { k : the start index of k is r },
  and for the matrix the lane passes through: element (r, q) receives the elements (k, q) of those rows.
-/
import proofs.«133288_j33552284516502_2_alg».proof.Proof.LibScatterRead
import Idealize.ShloMosaic.PureOps.Ideal

noncomputable section

open scoped BigOperators

namespace Cert.ScatterAddRead

open Idealize.ShloMosaic Idealize.ShloMosaic.ValueIdx Cert.ScatterRead
open scoped Classical

/-- The update rows whose signed start index is `r`. -/
def landing {M w : ℕ} (idx : IVec ⟨2, ![M, 1]⟩ w) (r : ℕ) : Finset (Fin M) :=
  Finset.univ.filter fun k => (idx (ix2 k (0 : Fin 1))).toInt = (r : ℤ)

theorem mem_landing {M w : ℕ} (idx : IVec ⟨2, ![M, 1]⟩ w) (r : ℕ) (k : Fin M) :
    k ∈ landing idx r ↔ (idx (ix2 k (0 : Fin 1))).toInt = (r : ℤ) := by
  unfold landing; rw [Finset.mem_filter]; exact ⟨fun h => h.2, fun h => ⟨Finset.mem_univ _, h⟩⟩

/-- A rank-1 index set is its one coordinate range. -/
def idxEquiv1 {n : ℕ} : (⟨1, ![n]⟩ : Shape).Idx ≃ Fin n where
  toFun i := i 0
  invFun := ix1
  left_inv i := (eq_ix1 i).symm
  right_inv _ := rfl

/-- THE ACCUMULATING VECTOR SCATTER READ AT `r`: the operand's element plus the sum of the updates of the rows that
    land on `r`. -/
theorem scatterAdd_vec_apply {φ : FTy} {N M w : ℕ} (wf) (x : FVec Ideal ⟨1, ![N]⟩ φ) (idx : IVec ⟨2, ![M, 1]⟩ w)
    (upd : FVec Ideal ⟨1, ![M]⟩ φ) (r : Fin N) :
    Host.scatterAdd (vecDims N M wf) x idx upd (ix1 r) = (x (ix1 r) + ∑ k ∈ landing idx r.val, upd (ix1 k) : EReal) := by
  show Ideal.hostScatterAdd (vecDims N M wf) x idx upd (ix1 r) = _
  unfold Ideal.hostScatterAdd landing
  congr 1
  rw [Finset.sum_filter, Finset.sum_filter, ← Equiv.sum_comp (idxEquiv1 (n := M)).symm]
  refine Finset.sum_congr rfl fun k _ => ?_
  show (if (vecDims N M wf).resultIdx? (ix1 k) idx = some (ix1 r) then upd (ix1 k) else 0) = _
  by_cases h : (idx (ix2 k (0 : Fin 1))).toInt = (r.val : ℤ)
  · rw [if_pos h, if_pos ((vecDims_lands wf (ix1 k) idx (ix1 r)).mpr h)]
  · rw [if_neg h, if_neg fun h' => h ((vecDims_lands wf (ix1 k) idx (ix1 r)).mp h')]

/-- THE ACCUMULATING ROW SCATTER READ AT `(r, q)`: the operand's element plus the sum, over the rows that land on
    `r`, of their elements in lane `q`. -/
theorem scatterAdd_row_apply {φ : FTy} {N M B w : ℕ} (wf) (x : FVec Ideal ⟨2, ![N, B]⟩ φ) (idx : IVec ⟨2, ![M, 1]⟩ w)
    (upd : FVec Ideal ⟨2, ![M, B]⟩ φ) (r : Fin N) (q : Fin B) :
    Host.scatterAdd (rowDims N M B wf) x idx upd (ix2 r q)
      = (x (ix2 r q) + ∑ k ∈ landing idx r.val, upd (ix2 k q) : EReal) := by
  show Ideal.hostScatterAdd (rowDims N M B wf) x idx upd (ix2 r q) = _
  unfold Ideal.hostScatterAdd landing
  congr 1
  rw [Finset.sum_filter, sum_idx2, Finset.sum_filter]
  refine Finset.sum_congr rfl fun k _ => ?_
  by_cases h : (idx (ix2 k (0 : Fin 1))).toInt = (r.val : ℤ)
  · rw [if_pos h, Finset.sum_eq_single q]
    · rw [if_pos ((rowDims_lands wf (ix2 k q) idx (ix2 r q)).mpr ⟨h, rfl⟩)]
    · intro b _ hb
      rw [if_neg]
      intro h'
      exact hb (Fin.ext ((rowDims_lands wf (ix2 k b) idx (ix2 r q)).mp h').2)
    · intro hq; exact absurd (Finset.mem_univ q) hq
  · rw [if_neg h]
    refine Finset.sum_eq_zero fun b _ => ?_
    rw [if_neg]
    intro h'
    exact h ((rowDims_lands wf (ix2 k b) idx (ix2 r q)).mp h').1

end Cert.ScatterAddRead

end
-- ==== Proof.LibGatherRows.lean ====
/-
  A host gather of whole rows, read at an index.

  The operand is a matrix [N, B]; the start indices are a column [M, 1] of signed integers, one per result row; the
  result is the matrix [M, B] whose row k is the operand's row at the start index of k. A gather clamps every start
  index so that the slice fits inside the operand: the row that is read is the start index taken as a signed integer,
  negative values becoming 0 and values past the last row becoming N - 1. The lane coordinate passes through.
-/
import Idealize.ShloMosaic.PureOps
import Idealize.ShloMosaic.Lib.ValueIdx

noncomputable section

namespace Cert.GatherRows

open Idealize.ShloMosaic Idealize.ShloMosaic.ValueIdx

variable {α : Type}

/-- The dimension numbers of `x[idx]` on a matrix `[N, B]` at `M` row indices stored as a column `[M, 1]`: the row
    axis is collapsed and indexed, the lane axis is the slice. -/
abbrev rowGather (N M B : ℕ)
    (wf : GatherDims.WF ⟨2, ![N, B]⟩ ⟨2, ![M, 1]⟩ ⟨2, ![M, B]⟩ [1] [0] [] [0] [] 1 ![1, B]) :
    GatherDims ⟨2, ![N, B]⟩ ⟨2, ![M, 1]⟩ ⟨2, ![M, B]⟩ where
  offsetDims := [1]
  collapsedSliceDims := [0]
  operandBatchingDims := []
  startIndicesBatchingDims := []
  startIndexMap := [0]
  indexVectorDim := 1
  sliceSizes := ![1, B]
  wf := wf

/-- The operand row that result row `k` reads: its start index as a signed integer, clamped into `[0, N - 1]`. -/
def row {N M w : ℕ} (hN : 0 < N) (idx : IVec ⟨2, ![M, 1]⟩ w) (k : Fin M) : Fin N :=
  ⟨min (idx (ix2 k (0 : Fin 1))).toInt.toNat (N - 1), by omega⟩

/-- A start index that already names a row `r` of the operand is not moved by the clamp. -/
theorem row_of_toInt {N M w : ℕ} (hN : 0 < N) (idx : IVec ⟨2, ![M, 1]⟩ w) (k : Fin M) (r : Fin N)
    (h : (idx (ix2 k (0 : Fin 1))).toInt = (r.val : ℤ)) : row hN idx k = r := by
  refine Fin.ext ?_
  show min (idx (ix2 k (0 : Fin 1))).toInt.toNat (N - 1) = r.val
  rw [h]
  have := r.isLt
  simp only [Int.toNat_natCast]
  omega

/-- THE ROW GATHER READ AT `(k, q)`: the operand at the clamped row of `k`, lane `q`. -/
theorem gather_rows_apply {N M B w : ℕ} (hN : 0 < N) (wf) (x : (⟨2, ![N, B]⟩ : Shape).Idx → α)
    (idx : IVec ⟨2, ![M, 1]⟩ w) (k : Fin M) (q : Fin B) :
    Host.gather (rowGather N M B wf) x idx (ix2 k q) = x (ix2 (row hN idx k) q) := by
  unfold Host.gather
  congr 1
  funext a
  refine Fin.ext ?_
  match a with
  | ⟨0, _⟩ =>
    show (rowGather N M B wf).start (ix2 k q) idx 0 + (rowGather N M B wf).batchCoord (ix2 k q) 0
      + (rowGather N M B wf).offCoord (ix2 k q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M B wf).startIndexMap from List.mem_singleton.mpr rfl)]
    have hsi : (rowGather N M B wf).siIdx (ix2 k q) ⟨List.idxOf (0 : Fin 2) (rowGather N M B wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    show (rowGather N M B wf).start (ix2 k q) idx 1 + (rowGather N M B wf).batchCoord (ix2 k q) 1
      + (rowGather N M B wf).offCoord (ix2 k q) 1 = q.val
    rw [GatherDims.batchCoord_eq_zero _ _ _ List.not_mem_nil]
    unfold GatherDims.start
    rw [dif_neg (show ¬ (1 : Fin 2) ∈ (rowGather N M B wf).startIndexMap by
      show ¬ (1 : Fin 2) ∈ ([0] : List (Fin 2)); decide)]
    unfold GatherDims.offCoord
    rw [dif_pos (show (1 : Fin 2) ∈ (rowGather N M B wf).sKept by
      rw [GatherDims.mem_sKept]; exact ⟨by show ¬ (1 : Fin 2) ∈ ([0] : List (Fin 2)); decide, List.not_mem_nil⟩)]
    simp only [Nat.zero_add]
    rfl

end Cert.GatherRows

end
-- ==== Proof.NodeSpec.lean ====
/-
  One output entry of the degree-normalised graph convolution, in the two arrangements the two programs compute.

  Nodes are numbered below 100000 and edges below 1000000. An edge e belongs to node n when its source, read as a
  signed integer, is n; the far end of e is the node its (wrapped and clamped) target names. With H the dense layer's
  output, deg the out-degrees and three rows of 64 normalisation parameters, entry (n, k) of the result is
      refOut:  ((1/2 * sum over n's edges of (deg(src e)^(-1/2) * deg(dst e)^(-1/2)) * H(dst e, k)
                 + 1/2 * (sum over n's edges of deg(src e) * H(src e, k)) / max(deg n, 1)) - mean k) * scale k + beta k
      kerOut:  (((1/2 * g(deg n)) * sum over n's edges of H(dst e, k) * g(deg(dst e)) + 1/2 * (H(n,k) * deg n)) - mean k)
                 * scale k + beta k,       g the reciprocal square root guarded at 0,
  with scale k = gamma k * rsqrt(var k + eps). Both are stated with the f32 words the programs carry.
-/
import Idealize.ShloMosaic.Lib.ValueIdx
import Idealize.ShloMosaic.PureOps.Ideal
import proofs.«133288_j33552284516502_2_alg».proof.Proof.BlockSpec
import proofs.«133288_j33552284516502_2_alg».proof.Proof.LibScatterAddRead
import proofs.«133288_j33552284516502_2_alg».proof.Proof.LibGatherRows

noncomputable section

open scoped BigOperators

namespace Cert.NodeSpec

open Idealize.ShloMosaic Idealize.ShloMosaic.ValueIdx Cert.BlockSpec

/-- The f32 words the programs carry: 0, 1, -1/2 and the variance offset. -/
abbrev zeroW : EReal := Ideal.ofBits .f32 0x00000000#32
abbrev oneW : EReal := Ideal.ofBits .f32 0x3F800000#32
abbrev negHalfW : EReal := Ideal.ofBits .f32 0xBF000000#32
abbrev epsW : EReal := Ideal.ofBits .f32 0x3A83126F#32

/-- The edges of node n: those whose source column entry, read signed, is n. -/
abbrev edgesOf (sc : IVec ⟨2, ![1000000, 1]⟩ 32) (n : Fin 100000) : Finset (Fin 1000000) :=
  Cert.ScatterAddRead.landing sc n.val

/-- The node an index column names for edge e: its entry read signed and clamped into the node range. -/
abbrev nodeOf (idx : IVec ⟨2, ![1000000, 1]⟩ 32) (e : Fin 1000000) : Fin 100000 :=
  Cert.GatherRows.row (N := 100000) (by decide) idx e

/-- The normalisation applied last, the same in both arrangements. -/
def normalise (x3 x4 x5 x6 : (⟨1, ![64]⟩ : Shape).Idx → EReal) (k : Fin 64) (a : EReal) : EReal :=
  (a - x5 (ix1 k)) * (x3 (ix1 k) * Ideal.rsqrt (x6 (ix1 k) + epsW)) + x4 (ix1 k)

/-- The arrangement that scales every edge's term by both ends' degree powers and divides the own term. -/
def refOut (H : Fin 100000 → Fin 64 → EReal) (deg : Fin 100000 → EReal)
    (sc dc nsc : IVec ⟨2, ![1000000, 1]⟩ 32) (x3 x4 x5 x6 : (⟨1, ![64]⟩ : Shape).Idx → EReal)
    (n : Fin 100000) (k : Fin 64) : EReal :=
  normalise x3 x4 x5 x6 k
    (half * (zeroW + ∑ e ∈ edgesOf sc n,
        (Ideal.pow (deg (nodeOf nsc e)) negHalfW * Ideal.pow (deg (nodeOf dc e)) negHalfW) * H (nodeOf dc e) k)
      + half * Ideal.div (zeroW + ∑ e ∈ edgesOf sc n, deg (nodeOf nsc e) * H (nodeOf nsc e) k) (max (deg n) oneW))

/-- The arrangement that scales the far ends before the sum and the node's factor after it. -/
def kerOut (H : Fin 100000 → Fin 64 → EReal) (deg : Fin 100000 → EReal)
    (sc dc : IVec ⟨2, ![1000000, 1]⟩ 32) (x3 x4 x5 x6 : (⟨1, ![64]⟩ : Shape).Idx → EReal)
    (n : Fin 100000) (k : Fin 64) : EReal :=
  normalise x3 x4 x5 x6 k
    ((half * invg (deg n)) * (zeroW + ∑ e ∈ edgesOf sc n, H (nodeOf dc e) k * invg (deg (nodeOf dc e)))
      + half * (H n k * deg n))

end Cert.NodeSpec

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.PairLayout.lean ====
/-
  Two rows in one: layout reads between a matrix [100000, 64] and its paired form [50000, 128].

  A shape cast keeps the row-major position of every element. Row n, lane k of the [100000, 64] matrix sits at position
  64 n + k; row p, lane l of the [50000, 128] matrix sits at position 128 p + l. So paired row p holds rows 2p and 2p + 1
  side by side: lanes 0..63 are row 2p, lanes 64..127 are row 2p + 1. The same cast takes a column [100000, 1] to
  [50000, 2], entry (p, j) being the column at 2p + j. A parameter vector [64] meets the paired form tiled twice along
  the lanes: lane l of the [1, 128] row reads the vector at l mod 64. Each lemma names the ONE operand element an output
  element reads, with every index written by the literal-size constructors ix1, ix2.
-/
import Idealize.ShloMosaic.Lib.ValueIdx
import Idealize.ShloMosaic.Lib.ValueLayout
import Idealize.ShloMosaic.Lib.Pipeline.Value
import proofs.«133288_j33552284516502_2_alg».proof.Proof.LibLayoutRead

noncomputable section

namespace Cert.PairLayout

open Idealize.ShloMosaic Idealize.ShloMosaic.ValueIdx

variable {α : Type}

/-- The paired matrix [50000, 128] re-read as [100000, 64]: (n, k) reads (p, l) when 64 n + k = 128 p + l. -/
theorem unpair_apply (x : (⟨2, ![50000, 128]⟩ : Shape).Idx → α)
    (h : (⟨2, ![50000, 128]⟩ : Shape).ShapeCasts ⟨2, ![100000, 64]⟩) (n : Fin 100000) (k : Fin 64) (p : Fin 50000) (l : Fin 128)
    (hpl : n.val * 64 + k.val = p.val * 128 + l.val) : shapeCast ⟨2, ![100000, 64]⟩ x h (ix2 n k) = x (ix2 p l) :=
  shapeCast_apply x h _ _ (by
    rw [Shape.rowMajor_val_two, Shape.rowMajor_val_two]
    show p.val * 128 + l.val = n.val * 64 + k.val
    omega)

/-- The matrix [100000, 64] re-read as the paired [50000, 128]: (p, l) reads (n, k) when 64 n + k = 128 p + l. -/
theorem pair_apply (x : (⟨2, ![100000, 64]⟩ : Shape).Idx → α)
    (h : (⟨2, ![100000, 64]⟩ : Shape).ShapeCasts ⟨2, ![50000, 128]⟩) (p : Fin 50000) (l : Fin 128) (n : Fin 100000) (k : Fin 64)
    (hpl : n.val * 64 + k.val = p.val * 128 + l.val) : shapeCast ⟨2, ![50000, 128]⟩ x h (ix2 p l) = x (ix2 n k) :=
  shapeCast_apply x h _ _ (by
    rw [Shape.rowMajor_val_two, Shape.rowMajor_val_two]
    show n.val * 64 + k.val = p.val * 128 + l.val
    omega)

/-- A column [100000, 1] re-read as [50000, 2]: (p, j) reads the column at row 2 p + j. -/
theorem pair_col_apply (x : (⟨2, ![100000, 1]⟩ : Shape).Idx → α)
    (h : (⟨2, ![100000, 1]⟩ : Shape).ShapeCasts ⟨2, ![50000, 2]⟩) (p : Fin 50000) (j : Fin 2) (n : Fin 100000)
    (hn : n.val = 2 * p.val + j.val) : shapeCast ⟨2, ![50000, 2]⟩ x h (ix2 p j) = x (ix2 n (0 : Fin 1)) :=
  shapeCast_apply x h _ _ (by
    rw [Shape.rowMajor_val_two, Shape.rowMajor_val_two]
    show n.val * 1 + 0 = p.val * 2 + j.val
    omega)

/-- A vector [64] as the row [1, 64]: lane k reads the vector at k. -/
theorem row_of_vec (s : (⟨1, ![64]⟩ : Shape).Idx → α) (h1 : (⟨1, ![64]⟩ : Shape).ShapeCasts ⟨2, ![1, 64]⟩) (k : Fin 64) :
    shapeCast ⟨2, ![1, 64]⟩ s h1 (ix2 (0 : Fin 1) k) = s (ix1 k) :=
  shapeCast_apply s h1 _ _ (by
    rw [Shape.rowMajor_val_two, Shape.rowMajor_val_one]
    show k.val = 0 * 64 + k.val
    omega)

/-- A vector [64] tiled twice along the lanes: as a row [1, 64], spread over two rows [2, 64], flattened to [128] and
    taken as the row [1, 128]. Lane l sits at position l of the flat form, which is row l / 64, lane l mod 64 of the two
    equal rows; so it reads the vector at l mod 64. -/
theorem tile2_apply (s : (⟨1, ![64]⟩ : Shape).Idx → α) (h1 : (⟨1, ![64]⟩ : Shape).ShapeCasts ⟨2, ![1, 64]⟩)
    (h2 : (⟨2, ![1, 64]⟩ : Shape).BroadcastsInDim ⟨2, ![2, 64]⟩ ![0, 1]) (h3 : (⟨2, ![2, 64]⟩ : Shape).ShapeCasts ⟨1, ![128]⟩)
    (h4 : (⟨1, ![128]⟩ : Shape).ShapeCasts ⟨2, ![1, 128]⟩) (l : Fin 128) (k : Fin 64) (hk : l.val % 64 = k.val) :
    shapeCast ⟨2, ![1, 128]⟩ (shapeCast ⟨1, ![128]⟩ (broadcastInDim ⟨2, ![2, 64]⟩ ![0, 1] h2 (shapeCast ⟨2, ![1, 64]⟩ s h1)) h3) h4
        (ix2 (0 : Fin 1) l) = s (ix1 k) := by
  have hl := l.isLt
  have hq : l.val / 64 < 2 := by omega
  -- the row [1, 128] at lane l is the flat form at l
  refine (shapeCast_apply _ h4 (ix2 (0 : Fin 1) l) (ix1 l) (by
    rw [Shape.rowMajor_val_two, Shape.rowMajor_val_one]
    show l.val = 0 * 128 + l.val
    omega)).trans ?_
  -- the flat form at l is row l / 64, lane l mod 64 of the two rows
  refine (shapeCast_apply _ h3 (ix1 l) (ix2 (⟨l.val / 64, hq⟩ : Fin 2) k) (by
    rw [Shape.rowMajor_val_two, Shape.rowMajor_val_one]
    show l.val / 64 * 64 + k.val = l.val
    omega)).trans ?_
  -- both rows are the one row [1, 64], which is the vector
  exact (Cert.LayoutRead.bid_rows _ h2 _ k).trans (row_of_vec s h1 k)

end Cert.PairLayout

end
-- ==== Proof.KRead.lean ====
/-
  The kernel program's result, read at one entry.

  The program's result is a composition of whole-array stages of its arguments. Read at node n and lane k, the last
  view takes (n, k) to row p = n / 2 and lane l = 64 (n mod 2) + k of the paired form, where the second region's
  formula applies: the half chosen by the lane picks node n's own degree, the paired views of the neighbour sum and
  of the self term read (n, k) again, and the three tiled parameter rows read lane k. The neighbour sum at (n, k) is
  zero plus, over the edges whose source is n, the dense layer's entry in the row named by the edge's target, scaled
  by that row's guarded reciprocal square root of the degree; the degree of a node is zero plus one per edge whose
  source it is. Together these give the entry in the arrangement that scales the far ends before the sum and the
  node's own factor after it.
-/
import proofs.«133288_j33552284516502_2_alg».proof.Proof.KStages
import proofs.«133288_j33552284516502_2_alg».proof.Proof.NodeSpec
import proofs.«133288_j33552284516502_2_alg».proof.Proof.PairLayout
import proofs.«133288_j33552284516502_2_alg».proof.Proof.BlockSpec
import proofs.«133288_j33552284516502_2_alg».proof.Proof.LibDenseRows
import proofs.«133288_j33552284516502_2_alg».proof.Proof.LibLayoutRead
import proofs.«133288_j33552284516502_2_alg».proof.Proof.LibScatterRead
import proofs.«133288_j33552284516502_2_alg».proof.Proof.LibScatterAddRead
import proofs.«133288_j33552284516502_2_alg».proof.Proof.LibGatherRows
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KRead

open Cert.KernelIdeal Cert.KernelIdeal.Gen Cert.KernelIdeal.Stages
open Idealize.ShloMosaic Idealize.ShloMosaic.ValueIdx
open Cert.BlockSpec Cert.DenseRows Cert.NodeSpec

/-! ## Each stage read at one entry -/

/-- The degree column at row j is the degree vector at j. -/
theorem degCol_apply (x7 : S1000000x2.Idx → BitVec 32) (j : Fin 100000) :
    degCol x7 (ix2 j (0 : Fin 1)) = degVec x7 (ix1 j) := by
  unfold degCol
  exact Cert.LayoutRead.cast_col _ _ j (0 : Fin 1)

/-- The bias as one row, read as a row, is the bias vector. -/
theorem biasRow_row (x2 : S64.Idx → EReal) : row (biasRow x2) (0 : Fin 1) = vec x2 := by
  funext q
  unfold biasRow
  exact Cert.PairLayout.row_of_vec x2 _ q

/-- The dense layer's entry with the bias held as one row is the layer's entry with the bias vector. -/
theorem hrow_eq (x0 : S100000x128.Idx → EReal) (x1 : S128x64.Idx → EReal) (x2 : S64.Idx → EReal)
    (j : Fin 100000) (k : Fin 64) :
    hrow x0 x1 (biasRow x2) j k = affine (row x0 j) (mat x1) (vec x2) k := by
  unfold hrow
  rw [biasRow_row]

/-- The first scaled array at (j, k): the layer's entry times the guarded reciprocal square root of node j's degree. -/
theorem hsA_apply (x0 : S100000x128.Idx → EReal) (x1 : S128x64.Idx → EReal) (x2 : S64.Idx → EReal)
    (x7 : S1000000x2.Idx → BitVec 32) (j : Fin 100000) (k : Fin 64) :
    hsA x0 x1 x2 x7 (ix2 j k) = affine (row x0 j) (mat x1) (vec x2) k * invg (degVec x7 (ix1 j)) := by
  unfold hsA
  rw [hsArr_apply, hrow_eq, degCol_apply]

/-- The second scaled array at (j, k): the layer's entry times node j's degree. -/
theorem ssA_apply (x0 : S100000x128.Idx → EReal) (x1 : S128x64.Idx → EReal) (x2 : S64.Idx → EReal)
    (x7 : S1000000x2.Idx → BitVec 32) (j : Fin 100000) (k : Fin 64) :
    ssA x0 x1 x2 x7 (ix2 j k) = affine (row x0 j) (mat x1) (vec x2) k * degVec x7 (ix1 j) := by
  unfold ssA
  rw [ssArr_apply, hrow_eq, degCol_apply]

/-- The neighbour sum at (n, k): zero plus, over the edges whose source is n, the first scaled array's entry in
    the row the edge's target names. -/
theorem neigh_apply (x0 : S100000x128.Idx → EReal) (x1 : S128x64.Idx → EReal) (x2 : S64.Idx → EReal)
    (x7 : S1000000x2.Idx → BitVec 32) (n : Fin 100000) (k : Fin 64) :
    neigh x0 x1 x2 x7 (ix2 n k)
      = zeroW + ∑ e ∈ edgesOf (srcCol x7) n,
          affine (row x0 (nodeOf (dstCol x7) e)) (mat x1) (vec x2) k * invg (degVec x7 (ix1 (nodeOf (dstCol x7) e))) := by
  unfold neigh
  show Host.scatterAdd (F := Ideal)
      (Cert.ScatterRead.rowDims 100000 1000000 64 Facts₀.scatter_S100000x64_S1000000x1_S1000000x64_1_0_0_1_wf)
      _ (srcCol x7) _ (ix2 n k) = _
  rw [Cert.ScatterAddRead.scatterAdd_row_apply, Cert.LayoutRead.bcast_scalar]
  refine congrArg₂ (· + ·) rfl (Finset.sum_congr rfl fun e _ => ?_)
  show Host.gather (Cert.GatherRows.rowGather 100000 1000000 64
      Facts₀.gather_S100000x64_S1000000x1_S1000000x64_1_0_n_n_0_1_164_wf) (hsA x0 x1 x2 x7) (dstCol x7) (ix2 e k) = _
  rw [Cert.GatherRows.gather_rows_apply (by decide : 0 < 100000), hsA_apply]

/-- The out-degree of node j: zero plus a one for every edge whose source is j. -/
theorem kdeg_entry (x7 : S1000000x2.Idx → BitVec 32) (j : Fin 100000) :
    degVec x7 (ix1 j) = zeroW + ∑ e ∈ edgesOf (srcCol x7) j, oneW := by
  unfold degVec
  show Host.scatterAdd (F := Ideal)
      (Cert.ScatterRead.vecDims 100000 1000000 Facts₀.scatter_S100000_S1000000x1_S1000000_n_0_0_1_wf)
      _ (srcCol x7) _ (ix1 j) = _
  rw [Cert.ScatterAddRead.scatterAdd_vec_apply, Cert.LayoutRead.bcast_scalar]
  refine congrArg₂ (· + ·) rfl (Finset.sum_congr rfl fun e _ => ?_)
  rw [Cert.LayoutRead.bcast_scalar]
  rfl

/-- A parameter vector spread over both halves of a 128-lane row reads, at lane l, the vector at l mod 64. -/
theorem tile_apply (v : S64.Idx → EReal) (l : Fin 128) (k : Fin 64) (hk : l.val % 64 = k.val) :
    tile v (ix2 (0 : Fin 1) l) = v (ix1 k) := by
  unfold tile
  exact Cert.PairLayout.tile2_apply v _ _ _ _ l k hk

/-- The normalisation's scale at lane k. -/
theorem scaleVec_apply (x3 x6 : S64.Idx → EReal) (k : Fin 64) :
    scaleVec x3 x6 (ix1 k) = x3 (ix1 k) * Ideal.rsqrt (x6 (ix1 k) + epsW) := by
  unfold scaleVec
  show x3 (ix1 k) * Ideal.rsqrt (x6 (ix1 k)
      + broadcastInDim S64 ![] bcast_S_S64 (constant (F := Ideal) S_ .f32 0x3A83126F#32) (ix1 k)) = _
  rw [Cert.LayoutRead.bcast_scalar]
  rfl

/-- The per-node factor chosen by the lane's half: in the paired form row p holds nodes 2p and 2p + 1, and a lane
    of the first half reads column 0, a lane of the second half column 1; either way it is node n's own entry. -/
theorem gate_read (d : S100000x1.Idx → EReal) (h : S100000x1.ShapeCasts S50000x2) (n : Fin 100000) (p : Fin 50000)
    (l : Fin 128) (hp : p.val = n.val / 2) (hl : l.val / 64 = n.val % 2) :
    (if l.val < 64 then invg (shapeCast S50000x2 d h (ix2 p (0 : Fin 2)))
      else invg (shapeCast S50000x2 d h (ix2 p (1 : Fin 2)))) = invg (d (ix2 n (0 : Fin 1))) := by
  split
  · rw [Cert.PairLayout.pair_col_apply d h p (0 : Fin 2) n (by show n.val = 2 * p.val + 0; omega)]
  · rw [Cert.PairLayout.pair_col_apply d h p (1 : Fin 2) n (by show n.val = 2 * p.val + 1; omega)]

/-! ## The result at one entry -/

/-- The result at (n, k), read through the paired row p = n / 2 and lane l = 64 (n mod 2) + k. -/
theorem ker_entry_at (x0 : S100000x128.Idx → EReal) (x1 : S128x64.Idx → EReal) (x2 x3 x4 x5 x6 : S64.Idx → EReal)
    (x7 : S1000000x2.Idx → BitVec 32) (n : Fin 100000) (k : Fin 64) (p : Fin 50000) (l : Fin 128)
    (hp : p.val = n.val / 2) (hl : l.val = n.val % 2 * 64 + k.val) :
    kout x0 x1 x2 x3 x4 x5 x6 x7 (ix2 n k)
      = kerOut (fun n k => affine (row x0 n) (mat x1) (vec x2) k) (fun j => degVec x7 (ix1 j))
          (srcCol x7) (dstCol x7) x3 x4 x5 x6 n k := by
  have hk := k.isLt
  have hpl : n.val * 64 + k.val = p.val * 128 + l.val := by omega
  have hlk : l.val % 64 = k.val := by omega
  have hlh : l.val / 64 = n.val % 2 := by omega
  unfold kout
  rw [Cert.PairLayout.unpair_apply _ _ n k p l hpl]
  unfold out2
  rw [out2Arr_apply, gate_read (degCol x7) _ n p l hp hlh,
    Cert.PairLayout.pair_apply (neigh x0 x1 x2 x7) _ p l n k hpl,
    Cert.PairLayout.pair_apply (ssA x0 x1 x2 x7) _ p l n k hpl,
    tile_apply (scaleVec x3 x6) l k hlk, tile_apply x4 l k hlk, tile_apply x5 l k hlk,
    scaleVec_apply, neigh_apply, ssA_apply, degCol_apply]
  rfl

theorem ker_entry (x0 : S100000x128.Idx → EReal) (x1 : S128x64.Idx → EReal) (x2 x3 x4 x5 x6 : S64.Idx → EReal)
    (x7 : S1000000x2.Idx → BitVec 32) (n : Fin 100000) (k : Fin 64) :
    kout x0 x1 x2 x3 x4 x5 x6 x7 (ix2 n k)
      = kerOut (fun n k => affine (row x0 n) (mat x1) (vec x2) k) (fun j => degVec x7 (ix1 j))
          (srcCol x7) (dstCol x7) x3 x4 x5 x6 n k :=
  ker_entry_at x0 x1 x2 x3 x4 x5 x6 x7 n k ⟨n.val / 2, by have := n.isLt; omega⟩
    ⟨n.val % 2 * 64 + k.val, by have := k.isLt; omega⟩ rfl rfl

end Cert.KernelIdeal.KRead

end
-- ==== Proof.LibGatherVec.lean ====
/-
  A host gather of single elements of a vector, read at an index.

  The operand is a vector [N]; the start indices are a column [M, 1] of signed integers, one per result element; the
  result is the vector [M] whose element k is the operand's element at the start index of k. A gather clamps every
  start index so that the slice fits inside the operand: the element that is read is the start index taken as a signed
  integer, negative values becoming 0 and values past the last element becoming N - 1. This is the same clamped row
  that a gather of whole rows by the same column reads.
-/
import Idealize.ShloMosaic.PureOps
import Idealize.ShloMosaic.Lib.ValueIdx
import proofs.«133288_j33552284516502_2_alg».proof.Proof.LibGatherRows

noncomputable section

namespace Cert.GatherVec

open Idealize.ShloMosaic Idealize.ShloMosaic.ValueIdx Cert.GatherRows

variable {α : Type}

/-- The dimension numbers of `x[idx]` on a vector `[N]` at `M` indices stored as a column `[M, 1]`: the one axis is
    collapsed and indexed, and the result has no slice axis. -/
abbrev vecGather (N M : ℕ)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE VECTOR GATHER READ AT `k`: the operand at the clamped start index of `k`. -/
theorem gather_vec_apply {N M w : ℕ} (hN : 0 < N) (wf) (x : (⟨1, ![N]⟩ : Shape).Idx → α)
    (idx : IVec ⟨2, ![M, 1]⟩ w) (k : Fin M) :
    Host.gather (vecGather N M wf) x idx (ix1 k) = x (ix1 (row hN idx k)) := by
  unfold Host.gather
  congr 1
  funext a
  obtain rfl : a = 0 := Subsingleton.elim _ _
  refine Fin.ext ?_
  show (vecGather N M wf).start (ix1 k) idx 0 + (vecGather N M wf).batchCoord (ix1 k) 0
    + (vecGather N M wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N M wf).startIndexMap from List.mem_singleton.mpr rfl)]
  have hsi : (vecGather N M wf).siIdx (ix1 k) ⟨List.idxOf (0 : Fin 1) (vecGather N M wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

end Cert.GatherVec

end
-- ==== Proof.RefRead.lean ====
/-
  The reference program read at one entry.

  The reference computes a dense layer H = x * w + b on 100000 nodes, the out-degree of every node as an accumulating
  scatter of ones keyed by the 1000000 edges' sources, and two accumulating scatters keyed by the same sources: the
  far ends' layer rows scaled by both ends' degrees raised to -1/2, and the near ends' layer rows scaled by the near
  ends' degrees. It halves the first, divides the second by the larger of the degree and one and halves it, adds
  them, and applies an affine normalisation per lane. Every other operation of the program reads one element of each
  operand; here the three scatters and the five gathers are read as well, and the whole composition at entry (n, k)
  is stated as one closed expression in the layer H, the degrees and the three index columns.

  An edge e belongs to node n when its source read as a signed integer is n. For such an edge the wrapped source
  (the source plus 100000 where it is negative) is the source itself, so the node a gather by the wrapped source
  column reads for e is n.
-/
import proofs.«133288_j33552284516502_2_alg».proof.Proof.Gen.ReferenceIdeal.Read
import proofs.«133288_j33552284516502_2_alg».proof.Proof.NodeSpec
import proofs.«133288_j33552284516502_2_alg».proof.Proof.LibScatterAddRead
import proofs.«133288_j33552284516502_2_alg».proof.Proof.LibGatherRows
import proofs.«133288_j33552284516502_2_alg».proof.Proof.LibGatherVec
import proofs.«133288_j33552284516502_2_alg».proof.Proof.LibDenseRows
import proofs.«133288_j33552284516502_2_alg».proof.Proof.LibLayoutRead
import Idealize.ShloMosaic.Lib.ValueIdx
import Idealize.ShloMosaic.PureOps.Ideal.Laws

noncomputable section

open scoped BigOperators

namespace Cert.RefRead

open Cert.ReferenceIdeal Cert.ReferenceIdeal.Gen Idealize.ShloMosaic Idealize.ShloMosaic.ValueIdx

/-! ## The dimension numbers

The reference's two accumulating scatters, its two gathers and its matrix product carry the plain dimension numbers:
one signed start index per edge, stored as a column, addressing the leading axis of the operand. -/

theorem deg_dims : scatter_S100000_S1000000x1_S1000000_n_0_0_1
    = Cert.ScatterRead.vecDims 100000 1000000 Facts₀.scatter_S100000_S1000000x1_S1000000_n_0_0_1_wf := rfl

theorem agg_dims : scatter_S100000x64_S1000000x1_S1000000x64_1_0_0_1
    = Cert.ScatterRead.rowDims 100000 1000000 64 Facts₀.scatter_S100000x64_S1000000x1_S1000000x64_1_0_0_1_wf := rfl

theorem vgather_dims : gather_S100000_S1000000x1_S1000000_n_0_n_n_0_1_1
    = Cert.GatherVec.vecGather 100000 1000000 Facts₀.gather_S100000_S1000000x1_S1000000_n_0_n_n_0_1_1_wf := rfl

theorem rgather_dims : gather_S100000x64_S1000000x1_S1000000x64_1_0_n_n_0_1_164
    = Cert.GatherRows.rowGather 100000 1000000 64 Facts₀.gather_S100000x64_S1000000x1_S1000000x64_1_0_n_n_0_1_164_wf := rfl

/-! ## The index columns

The program builds the column of edge sources three times, the column of wrapped targets twice and the column of
wrapped sources three times; each family is one term. -/

theorem src_col_b (x7 : (⟨S1000000x2, .i32⟩ : BufTy).Contents (Elt Ideal)) :
    Read.val_main_v40 (F := Ideal) x7 = Read.val_main_v10 (F := Ideal) x7 := rfl

theorem src_col_c (x7 : (⟨S1000000x2, .i32⟩ : BufTy).Contents (Elt Ideal)) :
    Read.val_main_v62 (F := Ideal) x7 = Read.val_main_v10 (F := Ideal) x7 := rfl

theorem dst_col_b (x7 : (⟨S1000000x2, .i32⟩ : BufTy).Contents (Elt Ideal)) :
    Read.val_main_v35 (F := Ideal) x7 = Read.val_main_v26 (F := Ideal) x7 := rfl

theorem wsrc_col_b (x7 : (⟨S1000000x2, .i32⟩ : BufTy).Contents (Elt Ideal)) :
    Read.val_main_v49 (F := Ideal) x7 = Read.val_main_v19 (F := Ideal) x7 := rfl

theorem wsrc_col_c (x7 : (⟨S1000000x2, .i32⟩ : BufTy).Contents (Elt Ideal)) :
    Read.val_main_v57 (F := Ideal) x7 = Read.val_main_v19 (F := Ideal) x7 := rfl

/-- A signed test against zero followed by a choice keeps the second branch at a nonnegative word. -/
theorem keep_of_nonneg (s t : BitVec 32) (h : 0 ≤ s.toInt) :
    Scalar.select (IntOp.cmpi .slt s 0#32) t s = s := by
  have hlt : s.slt 0#32 = false := by
    simp only [BitVec.slt, BitVec.toInt_zero, decide_eq_false_iff_not, Int.not_lt]
    exact h
  show (if BitVec.ofBool (s.slt 0#32) = 1 then t else s) = s
  rw [hlt]
  rfl

/-- The source column at (e, 0) is the source vector at e. -/
theorem src_col_apply (x7 : (⟨S1000000x2, .i32⟩ : BufTy).Contents (Elt Ideal)) (e : Fin 1000000) :
    Read.val_main_v10 (F := Ideal) x7 (ix2 e (0 : Fin 1)) = Read.val_main_v1 (F := Ideal) x7 (ix1 e) := by
  unfold Read.val_main_v10
  exact Cert.LayoutRead.bid_col _ _ e 0

/-- The wrapped source column at (e, 0): the source itself where the source is not negative. -/
theorem wsrc_col_apply (x7 : (⟨S1000000x2, .i32⟩ : BufTy).Contents (Elt Ideal)) (e : Fin 1000000)
    (h : 0 ≤ (Read.val_main_v1 (F := Ideal) x7 (ix1 e)).toInt) :
    Read.val_main_v19 (F := Ideal) x7 (ix2 e (0 : Fin 1)) = Read.val_main_v1 (F := Ideal) x7 (ix1 e) := by
  unfold Read.val_main_v19
  rw [Cert.LayoutRead.bid_col, Read.val_main_v18_apply, Read.val_main_v15_apply, Read.val_main_v14_apply,
    Read.val_main_c_apply]
  exact keep_of_nonneg _ _ h

/-- (T3) An edge of node n has n as the node its wrapped source names: the edge's source read signed is n, which is
    not negative, so the wrap leaves it and the clamp of a gather leaves it. -/
theorem own_source (x7 : (⟨S1000000x2, .i32⟩ : BufTy).Contents (Elt Ideal)) (n : Fin 100000) (e : Fin 1000000)
    (he : e ∈ Cert.NodeSpec.edgesOf (Read.val_main_v10 (F := Ideal) x7) n) :
    Cert.NodeSpec.nodeOf (Read.val_main_v19 (F := Ideal) x7) e = n := by
  have h1 : (Read.val_main_v10 (F := Ideal) x7 (ix2 e (0 : Fin 1))).toInt = (n.val : ℤ) :=
    (Cert.ScatterAddRead.mem_landing _ _ _).mp he
  rw [src_col_apply] at h1
  refine Cert.GatherRows.row_of_toInt _ _ e n ?_
  rw [wsrc_col_apply x7 e (by rw [h1]; exact Int.natCast_nonneg _)]
  exact h1

/-! ## The out-degrees -/

/-- (T2) The out-degree of node j: the zero word plus one unit word per edge of j. -/
theorem deg_entry (x7 : (⟨S1000000x2, .i32⟩ : BufTy).Contents (Elt Ideal)) (j : Fin 100000) :
    Read.val_main_v11 (F := Ideal) x7 (ix1 j)
      = Cert.NodeSpec.zeroW + ∑ e ∈ Cert.NodeSpec.edgesOf (Read.val_main_v10 (F := Ideal) x7) j, Cert.NodeSpec.oneW := by
  unfold Read.val_main_v11
  rw [deg_dims, Cert.ScatterAddRead.scatterAdd_vec_apply, Read.val_main_v9_apply, Read.val_main_cst_0_apply]
  refine congrArg _ (Finset.sum_congr rfl fun e _ => ?_)
  rw [Read.val_main_v8_apply, Read.val_main_cst_apply]
  rfl

/-- The degrees raised to the power -1/2 and gathered by an index column: entry e is the power of the degree of the
    node the column names for e. -/
theorem pow_gather_apply (x7 : (⟨S1000000x2, .i32⟩ : BufTy).Contents (Elt Ideal)) (idx : IVec ⟨2, ![1000000, 1]⟩ 32) (e : Fin 1000000) :
    Host.gather gather_S100000_S1000000x1_S1000000_n_0_n_n_0_1_1 (Read.val_main_v13 (F := Ideal) x7) idx (ix1 e)
      = Ideal.pow (Read.val_main_v11 (F := Ideal) x7 (ix1 (Cert.NodeSpec.nodeOf idx e))) Cert.NodeSpec.negHalfW := by
  rw [vgather_dims, Cert.GatherVec.gather_vec_apply (by decide), Read.val_main_v13_apply, Read.val_main_v12_apply,
    Read.val_main_cst_1_apply]
  rfl

/-- The degrees gathered by an index column. -/
theorem deg_gather_apply (x7 : (⟨S1000000x2, .i32⟩ : BufTy).Contents (Elt Ideal)) (idx : IVec ⟨2, ![1000000, 1]⟩ 32) (e : Fin 1000000) :
    Host.gather gather_S100000_S1000000x1_S1000000_n_0_n_n_0_1_1 (Read.val_main_v11 (F := Ideal) x7) idx (ix1 e)
      = Read.val_main_v11 (F := Ideal) x7 (ix1 (Cert.NodeSpec.nodeOf idx e)) := by
  rw [vgather_dims, Cert.GatherVec.gather_vec_apply (by decide)]

/-- The larger of a node's degree and one, spread over the lanes. -/
theorem maxdeg_apply (x7 : (⟨S1000000x2, .i32⟩ : BufTy).Contents (Elt Ideal)) (n : Fin 100000) (k : Fin 64) :
    Read.val_main_v67 (F := Ideal) x7 (ix2 n k) = max (Read.val_main_v11 (F := Ideal) x7 (ix1 n)) Cert.NodeSpec.oneW := by
  unfold Read.val_main_v67 Read.val_main_v66
  rw [Cert.LayoutRead.bid_cols, Cert.LayoutRead.bid_col, Read.val_main_v65_apply, Read.val_main_v64_apply,
    Read.val_main_cst_14_apply]
  rfl

/-! ## The dense layer and its gathered rows -/

/-- Entry (r, k) of the dense layer: the affine map of row r of the features. -/
theorem dense_apply (x0 : (⟨S100000x128, .f32⟩ : BufTy).Contents (Elt Ideal)) (x1 : (⟨S128x64, .f32⟩ : BufTy).Contents (Elt Ideal)) (x2 : (⟨S64, .f32⟩ : BufTy).Contents (Elt Ideal))
    (r : Fin 100000) (k : Fin 64) :
    Read.val_main_v7 (F := Ideal) x0 x1 x2 (ix2 r k)
      = Cert.DenseRows.affine (Cert.DenseRows.row x0 r) (Cert.DenseRows.mat x1) (Cert.DenseRows.vec x2) k :=
  congrFun (Cert.DenseRows.row_dotGeneral_bias dot_S100000x128_S128x64_S100000x64_1_0_0_1_n_n rfl none x0 x1 x2
    Facts₀.bcast_S64_S1x64_1 Facts₀.bcast_S1x64_S100000x64_0_1 r) k

/-- Rows of a matrix gathered by an index column: row e is the row of the node the column names for e. -/
theorem rows_gather_apply (x : (⟨S100000x64, .f32⟩ : BufTy).Contents (Elt Ideal)) (idx : IVec ⟨2, ![1000000, 1]⟩ 32)
    (e : Fin 1000000) (k : Fin 64) :
    Host.gather gather_S100000x64_S1000000x1_S1000000x64_1_0_n_n_0_1_164 x idx (ix2 e k)
      = x (ix2 (Cert.NodeSpec.nodeOf idx e) k) := by
  rw [rgather_dims]
  exact Cert.GatherRows.gather_rows_apply (by decide) _ x idx e k

/-! ## The two sums over a node's edges -/

/-- The first sum at (n, k): over n's edges, the product of both ends' degree powers times the far end's layer entry. -/
theorem agg_apply (x0 : (⟨S100000x128, .f32⟩ : BufTy).Contents (Elt Ideal)) (x1 : (⟨S128x64, .f32⟩ : BufTy).Contents (Elt Ideal)) (x2 : (⟨S64, .f32⟩ : BufTy).Contents (Elt Ideal))
    (x7 : (⟨S1000000x2, .i32⟩ : BufTy).Contents (Elt Ideal)) (n : Fin 100000) (k : Fin 64) :
    Read.val_main_v41 (F := Ideal) x0 x1 x2 x7 (ix2 n k)
      = Cert.NodeSpec.zeroW + ∑ e ∈ Cert.NodeSpec.edgesOf (Read.val_main_v10 (F := Ideal) x7) n,
          (Ideal.pow (Read.val_main_v11 (F := Ideal) x7 (ix1 (Cert.NodeSpec.nodeOf (Read.val_main_v19 (F := Ideal) x7) e)))
              Cert.NodeSpec.negHalfW
            * Ideal.pow (Read.val_main_v11 (F := Ideal) x7 (ix1 (Cert.NodeSpec.nodeOf (Read.val_main_v26 (F := Ideal) x7) e)))
              Cert.NodeSpec.negHalfW)
          * Cert.DenseRows.affine (Cert.DenseRows.row x0 (Cert.NodeSpec.nodeOf (Read.val_main_v26 (F := Ideal) x7) e))
              (Cert.DenseRows.mat x1) (Cert.DenseRows.vec x2) k := by
  unfold Read.val_main_v41
  rw [src_col_b, agg_dims, Cert.ScatterAddRead.scatterAdd_row_apply, Read.val_main_v39_apply, Read.val_main_cst_7_apply]
  refine congrArg _ (Finset.sum_congr rfl fun e _ => ?_)
  rw [Read.val_main_v38_apply]
  unfold Read.val_main_v37 Read.val_main_v29 Read.val_main_v36
  rw [Cert.LayoutRead.bid_cols, Cert.LayoutRead.bid_col, Read.val_main_v28_apply]
  unfold Read.val_main_v20 Read.val_main_v27
  rw [pow_gather_apply, pow_gather_apply, dst_col_b, rows_gather_apply, dense_apply]
  rfl

/-- The second sum at (n, k): over n's edges, the near end's degree times the near end's layer entry. -/
theorem own_apply (x0 : (⟨S100000x128, .f32⟩ : BufTy).Contents (Elt Ideal)) (x1 : (⟨S128x64, .f32⟩ : BufTy).Contents (Elt Ideal)) (x2 : (⟨S64, .f32⟩ : BufTy).Contents (Elt Ideal))
    (x7 : (⟨S1000000x2, .i32⟩ : BufTy).Contents (Elt Ideal)) (n : Fin 100000) (k : Fin 64) :
    Read.val_main_v63 (F := Ideal) x0 x1 x2 x7 (ix2 n k)
      = Cert.NodeSpec.zeroW + ∑ e ∈ Cert.NodeSpec.edgesOf (Read.val_main_v10 (F := Ideal) x7) n,
          Read.val_main_v11 (F := Ideal) x7 (ix1 (Cert.NodeSpec.nodeOf (Read.val_main_v19 (F := Ideal) x7) e))
          * Cert.DenseRows.affine (Cert.DenseRows.row x0 (Cert.NodeSpec.nodeOf (Read.val_main_v19 (F := Ideal) x7) e))
              (Cert.DenseRows.mat x1) (Cert.DenseRows.vec x2) k := by
  unfold Read.val_main_v63
  rw [src_col_c, agg_dims, Cert.ScatterAddRead.scatterAdd_row_apply, Read.val_main_v61_apply, Read.val_main_cst_13_apply]
  refine congrArg _ (Finset.sum_congr rfl fun e _ => ?_)
  rw [Read.val_main_v60_apply]
  unfold Read.val_main_v59 Read.val_main_v51 Read.val_main_v58 Read.val_main_v50
  rw [Cert.LayoutRead.bid_cols, Cert.LayoutRead.bid_col, wsrc_col_b, wsrc_col_c, deg_gather_apply, rows_gather_apply,
    dense_apply]
  rfl

/-! ## The normalisation's parameter rows -/

/-- The mean row spread over the nodes reads its lane. -/
theorem mean_apply (x5 : (⟨S64, .f32⟩ : BufTy).Contents (Elt Ideal)) (n : Fin 100000) (k : Fin 64) :
    Read.val_main_v73 (F := Ideal) x5 (ix2 n k) = x5 (ix1 k) := by
  unfold Read.val_main_v73 Read.val_main_v72
  exact Cert.DenseRows.broadcastTwice_apply x5 _ _ n k

/-- The offset row spread over the nodes reads its lane. -/
theorem beta_apply (x4 : (⟨S64, .f32⟩ : BufTy).Contents (Elt Ideal)) (n : Fin 100000) (k : Fin 64) :
    Read.val_main_v83 (F := Ideal) x4 (ix2 n k) = x4 (ix1 k) := by
  unfold Read.val_main_v83 Read.val_main_v82
  exact Cert.DenseRows.broadcastTwice_apply x4 _ _ n k

/-- The scale row spread over the nodes: the gain times the reciprocal square root of the offset variance. -/
theorem scale_apply (x3 x6 : (⟨S64, .f32⟩ : BufTy).Contents (Elt Ideal)) (n : Fin 100000) (k : Fin 64) :
    Read.val_main_v80 (F := Ideal) x3 x6 (ix2 n k)
      = x3 (ix1 k) * Ideal.rsqrt (x6 (ix1 k) + Cert.NodeSpec.epsW) := by
  unfold Read.val_main_v80 Read.val_main_v79
  rw [Cert.DenseRows.broadcastTwice_apply, Read.val_main_v78_apply, Read.val_main_v77_apply, Read.val_main_v76_apply,
    Read.val_main_v75_apply, Read.val_main_cst_16_apply]
  rfl

/-! ## One entry of the reference's result -/

/-- (T1) Entry (n, k) of the reference's result is the arrangement that scales every edge's term by both ends' degree
    powers and divides the own term by the larger of the degree and one. -/
theorem ref_entry (x0 : (⟨S100000x128, .f32⟩ : BufTy).Contents (Elt Ideal)) (x1 : (⟨S128x64, .f32⟩ : BufTy).Contents (Elt Ideal)) (x2 : (⟨S64, .f32⟩ : BufTy).Contents (Elt Ideal))
    (x3 x4 x5 x6 : (⟨S64, .f32⟩ : BufTy).Contents (Elt Ideal)) (x7 : (⟨S1000000x2, .i32⟩ : BufTy).Contents (Elt Ideal))
    (n : Fin 100000) (k : Fin 64) :
    Read.val_main_v84 (F := Ideal) x0 x1 x2 x3 x4 x5 x6 x7 (ix2 n k)
      = Cert.NodeSpec.refOut
          (fun n k => Cert.DenseRows.affine (Cert.DenseRows.row x0 n) (Cert.DenseRows.mat x1) (Cert.DenseRows.vec x2) k)
          (fun j => Read.val_main_v11 (F := Ideal) x7 (ix1 j)) (Read.val_main_v10 (F := Ideal) x7)
          (Read.val_main_v26 (F := Ideal) x7) (Read.val_main_v19 (F := Ideal) x7) x3 x4 x5 x6 n k := by
  rw [Read.val_main_v84_apply, Read.val_main_v81_apply, Read.val_main_v74_apply, Read.val_main_v71_apply,
    Read.val_main_v43_apply, Read.val_main_v70_apply, Read.val_main_v68_apply, beta_apply, scale_apply, mean_apply,
    Read.val_main_v42_apply, Read.val_main_cst_8_apply, Read.val_main_v69_apply, Read.val_main_cst_15_apply,
    agg_apply, own_apply, maxdeg_apply]
  unfold Cert.NodeSpec.refOut Cert.NodeSpec.normalise
  rfl

end Cert.RefRead

end
-- ==== Proof.LibDegreeAlgebra.lean ====
/-
  The arithmetic that joins the two arrangements of a degree-normalised graph convolution, on the extended reals.

  A node n with out-degree c (the number of edges whose source is n) receives from its edges e, with far ends D e,
      one arrangement:  a * (0 + sum over e of (p n * p (D e)) * h (D e))     with p j = (degree j) ^ (-1/2),
      the other:        (a * q n) * (0 + sum over e of h (D e) * q (D e))      with q j = 1 / sqrt (degree j), or 0 at degree 0.
  On a degree (a real number that is not negative) p and q are the same real number: at 0 both are 0, the power by
  the convention 0 ^ y = 0 for y other than 0, the guarded reciprocal square root by its guard. With every factor real the two
  arrangements differ by moving one real factor across a finite sum. The node's own term is a sum of c copies of
  c * h n divided by max c 1, against h n * c: at c = 0 both are 0, otherwise the division cancels one factor c.
-/
import Idealize.ShloMosaic.PureOps.Ideal
import Idealize.ShloMosaic.PureOps.Ideal.Laws

noncomputable section

open scoped BigOperators

namespace Cert.DegreeAlgebra

open Idealize.ShloMosaic

/-- The reciprocal square root of a real number, with Mathlib's conventions at 0 (the reciprocal of 0 is 0). -/
def isq (r : ℝ) : ℝ := (Real.sqrt r)⁻¹

/-- A finite sum of real numbers read as extended reals is the real sum. -/
theorem coe_sum {ι : Type} (S : Finset ι) (f : ι → ℝ) : (∑ e ∈ S, (f e : EReal)) = ((∑ e ∈ S, f e : ℝ) : EReal) := by
  classical
  induction S using Finset.induction_on with
  | empty => simp
  | insert a s ha ih => rw [Finset.sum_insert ha, Finset.sum_insert ha, ih, EReal.coe_add]

/-- The f32 word of minus one half. -/
theorem neg_half_word : Ideal.ofBits .f32 0xBF000000#32 = ((-(1 / 2) : ℝ) : EReal) := by
  simp [Ideal.ofBits, Ideal.ieee]
  have h : ((8388608 : ℝ) * ((2 : ℝ) ^ 24)⁻¹ = 2⁻¹) := by norm_num
  exact_mod_cast h

/-- The f32 word of one. -/
theorem one_word : Ideal.ofBits .f32 0x3F800000#32 = ((1 : ℝ) : EReal) := by
  simp [Ideal.ofBits, Ideal.ieee]
  have h : ((8388608 : ℝ) * ((2 : ℝ) ^ 23)⁻¹ = 1) := by norm_num
  exact_mod_cast h

/-- A degree raised to the power minus one half is its reciprocal square root, at degree 0 too. -/
theorem pow_neg_half (r : ℝ) (hr : 0 ≤ r) :
    Ideal.pow (r : EReal) (Ideal.ofBits .f32 0xBF000000#32) = ((isq r : ℝ) : EReal) := by
  rw [neg_half_word, Ideal.pow_coe_coe]
  congr 1
  show r ^ (-(1 / 2) : ℝ) = (Real.sqrt r)⁻¹
  rw [Real.rpow_neg hr, Real.sqrt_eq_rpow]

/-- The reciprocal square root guarded by a test for a positive argument is the same real number. -/
theorem guarded_rsqrt (r : ℝ) (hr : 0 ≤ r) :
    Scalar.select (Ideal.cmp .ogt (r : EReal) (Ideal.ofBits .f32 0x00000000#32)) (Ideal.rsqrt (r : EReal))
      (Ideal.ofBits .f32 0x00000000#32) = ((isq r : ℝ) : EReal) := by
  rw [Ideal.ofBits_zero_f32]
  unfold Scalar.select Ideal.cmp isq
  rcases hr.lt_or_eq with h | h
  · have h1 : ((0 : EReal) < (r : EReal)) := by exact_mod_cast h
    rw [if_pos (by simp [h1]), Ideal.rsqrt_coe, if_neg (not_lt.mpr hr), if_neg (ne_of_gt h)]
  · subst h
    rw [if_neg (by simp)]
    simp

/-- The far ends' contributions: one real factor moved across the sum. -/
theorem neighbour_side {ι : Type} (S : Finset ι) (a : EReal) (pn : ℝ) (pe he : ι → ℝ) :
    a * (0 + ∑ e ∈ S, ((pn : EReal) * (pe e : EReal)) * (he e : EReal))
      = (a * (pn : EReal)) * (0 + ∑ e ∈ S, (he e : EReal) * (pe e : EReal)) := by
  have e1 : (∑ e ∈ S, ((pn : EReal) * (pe e : EReal)) * (he e : EReal)) = ((∑ e ∈ S, pn * pe e * he e : ℝ) : EReal) := by
    rw [← coe_sum]; refine Finset.sum_congr rfl fun e _ => ?_
    rw [EReal.coe_mul, EReal.coe_mul]
  have e2 : (∑ e ∈ S, (he e : EReal) * (pe e : EReal)) = ((∑ e ∈ S, he e * pe e : ℝ) : EReal) := by
    rw [← coe_sum]; refine Finset.sum_congr rfl fun e _ => ?_
    rw [EReal.coe_mul]
  rw [e1, e2, zero_add, zero_add, mul_assoc, ← EReal.coe_mul]
  congr 2
  rw [Finset.mul_sum]
  refine Finset.sum_congr rfl fun e _ => ?_
  ring

/-- The out-degree: a sum of ones over the node's edges is their number. -/
theorem degree_real {ι : Type} (S : Finset ι) :
    (0 : EReal) + ∑ _e ∈ S, Ideal.ofBits .f32 0x3F800000#32 = ((S.card : ℝ) : EReal) := by
  rw [one_word, coe_sum, zero_add]
  simp

/-- The node's own term: c copies of c * h over max c 1 is h * c. -/
theorem self_side {ι : Type} (S : Finset ι) (hn : ℝ) :
    Ideal.div (0 + ∑ _e ∈ S, ((S.card : ℝ) : EReal) * (hn : EReal))
        (max ((S.card : ℝ) : EReal) (Ideal.ofBits .f32 0x3F800000#32))
      = (hn : EReal) * ((S.card : ℝ) : EReal) := by
  have e1 : (∑ _e ∈ S, ((S.card : ℝ) : EReal) * (hn : EReal)) = ((∑ _e ∈ S, (S.card : ℝ) * hn : ℝ) : EReal) := by
    rw [← coe_sum]; refine Finset.sum_congr rfl fun e _ => ?_
    rw [EReal.coe_mul]
  rw [e1, zero_add, one_word, Finset.sum_const, nsmul_eq_mul]
  rcases Nat.eq_zero_or_pos S.card with h0 | hpos
  · rw [h0, Nat.cast_zero, max_eq_right (by exact_mod_cast (zero_le_one : (0 : ℝ) ≤ 1)),
      Ideal.div_coe one_ne_zero, ← EReal.coe_mul, ← EReal.coe_mul]
    congr 1; simp
  · have h1 : (1 : ℝ) ≤ (S.card : ℝ) := by exact_mod_cast hpos
    have hc : (S.card : ℝ) ≠ 0 := by linarith
    rw [max_eq_left (by exact_mod_cast h1), Ideal.div_coe hc, ← EReal.coe_mul, ← EReal.coe_mul]
    congr 1
    field_simp

end Cert.DegreeAlgebra

end
-- ==== Proof.Bridge.lean ====
/-
  The two arrangements of one output entry agree when the dense layer's values are real numbers.

  Every out-degree is the number of the node's edges, a real number that is not negative, so the power -1/2 and the
  guarded reciprocal square root of a degree are one real number. On a node's own edges the wrapped source names the
  node itself. With every factor real, the neighbour sums differ by one factor moved across a finite sum, and the own
  term's sum of c equal terms over max c 1 cancels to one term.
-/
import proofs.«133288_j33552284516502_2_alg».proof.Proof.NodeSpec
import proofs.«133288_j33552284516502_2_alg».proof.Proof.LibDegreeAlgebra

noncomputable section

open scoped BigOperators

namespace Cert.NodeSpec

open Idealize.ShloMosaic Idealize.ShloMosaic.ValueIdx Cert.BlockSpec Cert.DegreeAlgebra

theorem ker_eq_ref (H : Fin 100000 → Fin 64 → EReal) (deg : Fin 100000 → EReal)
    (sc dc nsc : IVec ⟨2, ![1000000, 1]⟩ 32) (x3 x4 x5 x6 : (⟨1, ![64]⟩ : Shape).Idx → EReal)
    (n : Fin 100000) (k : Fin 64)
    (hH : ∀ j q, ∃ r : ℝ, H j q = (r : EReal))
    (hdeg : ∀ j, deg j = zeroW + ∑ _e ∈ edgesOf sc j, oneW)
    (hsrc : ∀ e ∈ edgesOf sc n, nodeOf nsc e = n) :
    kerOut H deg sc dc x3 x4 x5 x6 n k = refOut H deg sc dc nsc x3 x4 x5 x6 n k := by
  choose hr hhr using hH
  have hz : zeroW = (0 : EReal) := Ideal.ofBits_zero_f32
  have hd : ∀ j, deg j = (((edgesOf sc j).card : ℝ) : EReal) := fun j => by
    rw [hdeg j, hz]; exact degree_real (edgesOf sc j)
  have hpos : ∀ j, (0 : ℝ) ≤ ((edgesOf sc j).card : ℝ) := fun j => Nat.cast_nonneg _
  have hp : ∀ j, Ideal.pow (deg j) negHalfW = ((isq ((edgesOf sc j).card : ℝ) : ℝ) : EReal) := fun j => by
    rw [hd j]; exact pow_neg_half _ (hpos j)
  have hg : ∀ j, invg (deg j) = ((isq ((edgesOf sc j).card : ℝ) : ℝ) : EReal) := fun j => by
    rw [hd j]; exact guarded_rsqrt _ (hpos j)
  unfold kerOut refOut
  refine congrArg (normalise x3 x4 x5 x6 k) ?_
  -- the neighbour sums
  have hA : half * (zeroW + ∑ e ∈ edgesOf sc n,
        (Ideal.pow (deg (nodeOf nsc e)) negHalfW * Ideal.pow (deg (nodeOf dc e)) negHalfW) * H (nodeOf dc e) k)
      = (half * invg (deg n)) * (zeroW + ∑ e ∈ edgesOf sc n, H (nodeOf dc e) k * invg (deg (nodeOf dc e))) := by
    rw [hz, hg n]
    rw [Finset.sum_congr rfl (fun e he => by
      rw [hsrc e he, hp n, hp (nodeOf dc e), hhr (nodeOf dc e) k] :
        ∀ e ∈ edgesOf sc n, (Ideal.pow (deg (nodeOf nsc e)) negHalfW * Ideal.pow (deg (nodeOf dc e)) negHalfW) * H (nodeOf dc e) k
          = (((isq ((edgesOf sc n).card : ℝ) : ℝ) : EReal) * ((isq ((edgesOf sc (nodeOf dc e)).card : ℝ) : ℝ) : EReal))
              * ((hr (nodeOf dc e) k : ℝ) : EReal))]
    rw [Finset.sum_congr rfl (fun e _ => by
      rw [hg (nodeOf dc e), hhr (nodeOf dc e) k] :
        ∀ e ∈ edgesOf sc n, H (nodeOf dc e) k * invg (deg (nodeOf dc e))
          = ((hr (nodeOf dc e) k : ℝ) : EReal) * ((isq ((edgesOf sc (nodeOf dc e)).card : ℝ) : ℝ) : EReal))]
    exact neighbour_side (edgesOf sc n) half _ (fun e => isq ((edgesOf sc (nodeOf dc e)).card : ℝ)) (fun e => hr (nodeOf dc e) k)
  -- the node's own term
  have hB : Ideal.div (zeroW + ∑ e ∈ edgesOf sc n, deg (nodeOf nsc e) * H (nodeOf nsc e) k) (max (deg n) oneW)
      = H n k * deg n := by
    rw [hz]
    rw [Finset.sum_congr rfl (fun e he => by
      rw [hsrc e he, hd n, hhr n k] :
        ∀ e ∈ edgesOf sc n, deg (nodeOf nsc e) * H (nodeOf nsc e) k
          = (((edgesOf sc n).card : ℝ) : EReal) * ((hr n k : ℝ) : EReal))]
    rw [hd n, hhr n k]
    exact self_side (edgesOf sc n) (hr n k)
  rw [hA, hB]

end Cert.NodeSpec

end
-- ==== Proof.CrossTerms.lean ====
/-
  The terms both programs share, and the dense layer on real inputs.

  The two programs compute the edge index columns and the out-degree vector by the same operations on the edge array:
  the column of sources (slice, flatten, take as a column), the column of targets with a negative entry moved up by the
  node count, and the out-degrees as ones scattered by source onto zeros. Each program writes them over its own names for
  the same literal shapes and its own proofs of the same side conditions, so the two spellings are one function of the
  edge array. Last, one dense layer applied to a row of real numbers, with a real matrix and a real bias, gives real
  numbers: a finite sum of products of reals plus a real.
-/
import proofs.«133288_j33552284516502_2_alg».proof.Proof.KStages
import proofs.«133288_j33552284516502_2_alg».proof.Proof.Gen.ReferenceIdeal.Read
import proofs.«133288_j33552284516502_2_alg».proof.Proof.LibDenseRows
import proofs.«133288_j33552284516502_2_alg».proof.Proof.LibDegreeAlgebra
import Idealize.ShloMosaic.PureOps.Ideal

noncomputable section

namespace Cert.CrossTerms

open Idealize.ShloMosaic Idealize.ShloMosaic.ValueIdx

/-- The column of edge sources: the same slice, flattening and column view in both programs. -/
theorem srcCol_eq (x7 : (⟨2, ![1000000, 2]⟩ : Shape).Idx → BitVec 32) :
    Cert.KernelIdeal.Stages.srcCol x7 = Cert.ReferenceIdeal.Read.val_main_v10 (F := Ideal) x7 := by
  unfold Cert.KernelIdeal.Stages.srcCol Cert.KernelIdeal.Stages.srcFlat Cert.ReferenceIdeal.Read.val_main_v10
    Cert.ReferenceIdeal.Read.val_main_v1 Cert.ReferenceIdeal.Read.val_main_v0
  rfl

/-- The column of edge targets, a negative one moved up by the node count: the same comparison with zero, the same
    addition of 100000 and the same selection in both programs. -/
theorem dstCol_eq (x7 : (⟨2, ![1000000, 2]⟩ : Shape).Idx → BitVec 32) :
    Cert.KernelIdeal.Stages.dstCol x7 = Cert.ReferenceIdeal.Read.val_main_v26 (F := Ideal) x7 := by
  unfold Cert.KernelIdeal.Stages.dstCol Cert.KernelIdeal.Stages.dstFlat Cert.ReferenceIdeal.Read.val_main_v26
    Cert.ReferenceIdeal.Read.val_main_v25 Cert.ReferenceIdeal.Read.val_main_v22 Cert.ReferenceIdeal.Read.val_main_v24
    Cert.ReferenceIdeal.Read.val_main_v21 Cert.ReferenceIdeal.Read.val_main_v23 Cert.ReferenceIdeal.Read.val_main_c_3
    Cert.ReferenceIdeal.Read.val_main_c_4 Cert.ReferenceIdeal.Read.val_main_v3 Cert.ReferenceIdeal.Read.val_main_v2
  rfl

/-- The out-degrees: ones scattered by source onto zeros, with the same scatter dimension numbers in both programs. -/
theorem degVec_eq (x7 : (⟨2, ![1000000, 2]⟩ : Shape).Idx → BitVec 32) :
    Cert.KernelIdeal.Stages.degVec x7 = Cert.ReferenceIdeal.Read.val_main_v11 (F := Ideal) x7 := by
  unfold Cert.KernelIdeal.Stages.degVec Cert.ReferenceIdeal.Read.val_main_v11
  rw [srcCol_eq]
  unfold Cert.ReferenceIdeal.Read.val_main_v9 Cert.ReferenceIdeal.Read.val_main_v8 Cert.ReferenceIdeal.Read.val_main_cst_0
    Cert.ReferenceIdeal.Read.val_main_cst
  rfl

/-- A dense layer on real inputs gives real numbers: entry k of row n is the sum over j of x0 (n, j) * x1 (j, k), plus
    x2 k; with every factor real, the products, their finite sum and the total are real. -/
theorem affine_real (x0 : (⟨2, ![100000, 128]⟩ : Shape).Idx → EReal) (x1 : (⟨2, ![128, 64]⟩ : Shape).Idx → EReal)
    (x2 : (⟨1, ![64]⟩ : Shape).Idx → EReal) (h0 : ∀ i, ∃ r : ℝ, x0 i = (r : EReal)) (h1 : ∀ i, ∃ r : ℝ, x1 i = (r : EReal))
    (h2 : ∀ i, ∃ r : ℝ, x2 i = (r : EReal)) (n : Fin 100000) (k : Fin 64) :
    ∃ r : ℝ, Cert.DenseRows.affine (Cert.DenseRows.row x0 n) (Cert.DenseRows.mat x1) (Cert.DenseRows.vec x2) k = (r : EReal) := by
  choose f0 hf0 using h0
  choose f1 hf1 using h1
  choose f2 hf2 using h2
  refine ⟨(∑ j : Fin 128, f0 (ix2 n j) * f1 (ix2 j k)) + f2 (ix1 k), ?_⟩
  show (∑ j : Fin 128, x0 (ix2 n j) * x1 (ix2 j k)) + x2 (ix1 k) = _
  rw [hf2, EReal.coe_add, ← Cert.DegreeAlgebra.coe_sum]
  congr 1
  refine Finset.sum_congr rfl fun j _ => ?_
  rw [hf0, hf1, EReal.coe_mul]

end Cert.CrossTerms

end
-- ==== Proof.FiniteInputs.lean ====
/-
  FINITE INPUTS ARE REAL NUMBERS. The precondition tests, for each float argument array, that every entry x has
  max x (-x) strictly below +∞, and takes the conjunction of the seven answers. At the extended reals an entry that
  passes this test is neither +∞ nor -∞ (the value that also stands for a NaN), so it is a real number. This module
  reads that fact out of the precondition for the first three arrays.
-/
import proofs.«133288_j33552284516502_2_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs

/-- The rank-0 shape has exactly one index. -/
instance : Subsingleton S_.Idx := ⟨fun a b => funext fun d => d.elim0⟩

/-- The f32 pattern 0x7F800000 (sign 0, exponent all ones, fraction 0) denotes +∞. -/
theorem inf_pattern : Ideal.ofBits .f32 0x7F800000#32 = (⊤ : EReal) := by simp [Ideal.ofBits, Ideal.ieee]

/-- One entry: if max x (-x) < +∞ holds as a comparison word, x is a real number. The two infinite cases are excluded
    because max ⊤ (-⊤) = ⊤ and max ⊥ (-⊥) = ⊤ are not below ⊤. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [inf_pattern] at h
  unfold Ideal.cmp at h
  induction x using EReal.rec with
  | bot => simp at h
  | coe r => exact ⟨r, rfl⟩
  | top => simp at h

/-- One array of any shape: if the conjunction over all entries of the test max x (-x) < +∞ is 1, every entry is real.
    The conjunction over all axes into the one-index result being 1 gives the test at each index. -/
theorem all_real {s : Shape} {axes : List (Fin s.rank)} (x : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf x) (broadcastInDim s ![] hb (constant S_ .f32 0x7F800000#32))) init hr hu j = 1#1) :
    ∀ i, ∃ r : ℝ, x i = (r : EReal) :=
  fun i => real_of_abs_lt_inf (x i) (Host.reduce_andi_all _ init hr hu j e i)

variable [Facts]

/-- THE PRECONDITION DECODED for the first three arrays: every entry of each is a real number. The predicate's value at
    its one index is a left-nested conjunction of seven answers; splitting it gives one answer per array. -/
theorem reals_of_finite (x0 : FVec Ideal S100000x128 .f32) (x1 : FVec Ideal S128x64 .f32)
    (x2 x3 x4 x5 x6 : FVec Ideal S64 .f32) (x7 : IVec S1000000x2 32)
    (h : Cert.Pre_finite_inputs.fn (F := Ideal) x0 x1 x2 x3 x4 x5 x6 x7 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h ValueIdx.ix0
  dsimp only [Cert.Pre_finite_inputs.fn, Cert.Pre_finite_inputs.fn_part1, andi] at e
  simp only [IntOp.andi_eq_one] at e
  obtain ⟨⟨⟨⟨⟨⟨h0, h1⟩, h2⟩, -⟩, -⟩, -⟩, -⟩ := e
  exact ⟨all_real x0 _ _ _ _ _ h0, all_real x1 _ _ _ _ _ h1, all_real x2 _ _ _ _ _ h2⟩

end Cert.FiniteInputs

end
-- ==== Proof.lean ====
/-
  A graph convolution with degree normalisation, computed two ways, gives one result on the extended reals.

  Both programs take node features x [100000, 128], a weight matrix [128, 64], a bias and four normalisation
  parameter vectors [64], and a list of 1000000 edges (source, target). Both form the dense layer h = x * W + b and the
  out-degrees (the number of edges per source). The reference scales every edge's contribution by
  deg(source)^(-1/2) * deg(target)^(-1/2), sums by source, adds half of the mean over a node's edges of
  deg(source) * h(source), and applies the normalisation. The kernel program scales h by the guarded reciprocal square
  root of the degree BEFORE gathering it by target, multiplies by the node's own factor after the sum, replaces the own
  term by h * deg, and does the combination on rows that hold two nodes each.

  The proof reads both results at one entry (n, k) as explicit sums over the edges of node n, and joins them by
  arithmetic on real numbers: the inputs are finite, so h is real; a degree is a count, so its power -1/2 and its
  guarded reciprocal square root are one real number (both 0 at degree 0); one real factor moves across a finite sum;
  and a sum of c equal terms c * h over max c 1 is c * h. The frames of the two kernel programs are the generated ones; the
  reference's frame is its generated run with the result dropped.
-/
import proofs.«133288_j33552284516502_2_alg».proof.Defs
import proofs.«133288_j33552284516502_2_alg».proof.Proof.Gen.Kernel
import proofs.«133288_j33552284516502_2_alg».proof.Proof.Gen.Kernel.Skeleton
import proofs.«133288_j33552284516502_2_alg».proof.Proof.Gen.Kernel.Launch
import proofs.«133288_j33552284516502_2_alg».proof.Proof.Gen.Kernel.Points
import proofs.«133288_j33552284516502_2_alg».proof.Proof.Gen.Kernel.Frame
import proofs.«133288_j33552284516502_2_alg».proof.Proof.Gen.KernelIdeal
import proofs.«133288_j33552284516502_2_alg».proof.Proof.Gen.KernelIdeal.Skeleton
import proofs.«133288_j33552284516502_2_alg».proof.Proof.Gen.KernelIdeal.Launch
import proofs.«133288_j33552284516502_2_alg».proof.Proof.Gen.KernelIdeal.Points
import proofs.«133288_j33552284516502_2_alg».proof.Proof.Gen.KernelIdeal.Frame
import proofs.«133288_j33552284516502_2_alg».proof.Proof.Gen.ReferenceIdeal
import proofs.«133288_j33552284516502_2_alg».proof.Proof.Gen.ReferenceIdeal.Run
import proofs.«133288_j33552284516502_2_alg».proof.Proof.Gen.ReferenceIdeal.Read
import proofs.«133288_j33552284516502_2_alg».proof.Proof.Gen.Pre_finite_inputs
import proofs.«133288_j33552284516502_2_alg».proof.Proof.KRun
import proofs.«133288_j33552284516502_2_alg».proof.Proof.KGlue
import proofs.«133288_j33552284516502_2_alg».proof.Proof.KRead
import proofs.«133288_j33552284516502_2_alg».proof.Proof.RefRead
import proofs.«133288_j33552284516502_2_alg».proof.Proof.Bridge
import proofs.«133288_j33552284516502_2_alg».proof.Proof.CrossTerms
import proofs.«133288_j33552284516502_2_alg».proof.Proof.FiniteInputs
import Idealize.ShloMosaic.Adequacy
import Idealize.ShloMosaic.Init

set_option maxRecDepth 16384

noncomputable section

namespace Cert.Proof

open Idealize.ShloMosaic Idealize.SL.Sem Idealize.ShloMosaic.ValueIdx

/-- Entry by entry, under finite inputs, the reference's composed stages and the kernel program's are one array. -/
theorem results_agree (x0 : (⟨2, ![100000, 128]⟩ : Shape).Idx → EReal) (x1 : (⟨2, ![128, 64]⟩ : Shape).Idx → EReal)
    (x2 x3 x4 x5 x6 : (⟨1, ![64]⟩ : Shape).Idx → EReal) (x7 : (⟨2, ![1000000, 2]⟩ : Shape).Idx → BitVec 32)
    (hpre : Cert.Pre_finite_inputs.fn (F := Ideal) x0 x1 x2 x3 x4 x5 x6 x7 = fun _ => 1#1) :
    Cert.ReferenceIdeal.Read.val_main_v84 (F := Ideal) x0 x1 x2 x3 x4 x5 x6 x7
      = Cert.KernelIdeal.Stages.kout x0 x1 x2 x3 x4 x5 x6 x7 := by
  obtain ⟨h0, h1, h2⟩ := Cert.FiniteInputs.reals_of_finite x0 x1 x2 x3 x4 x5 x6 x7 hpre
  funext i
  obtain ⟨n, k, rfl⟩ : ∃ (n : Fin 100000) (k : Fin 64), i = ix2 n k := ⟨i 0, i 1, eq_ix2 i⟩
  rw [Cert.RefRead.ref_entry x0 x1 x2 x3 x4 x5 x6 x7 n k, Cert.KernelIdeal.KRead.ker_entry x0 x1 x2 x3 x4 x5 x6 x7 n k,
    Cert.CrossTerms.srcCol_eq x7, Cert.CrossTerms.dstCol_eq x7, Cert.CrossTerms.degVec_eq x7]
  exact (Cert.NodeSpec.ker_eq_ref _ _ _ _ _ x3 x4 x5 x6 n k (Cert.CrossTerms.affine_real x0 x1 x2 h0 h1 h2)
    (fun j => Cert.RefRead.deg_entry x7 j) (fun e he => Cert.RefRead.own_source x7 n e he)).symm

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m ρ m' ρ' hpre hagree =>
    ⟨fun c => Cert.KernelIdeal.Stages.kout (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
      (θ_run Cert.KernelIdeal.defs _ _).mono (fun _ h c => ⟨(h c).1.trans (Cert.KernelIdeal.Glue.result_eq m ρ c), (h c).2⟩)
        (Cert.KernelIdeal.ValueRun.run_value (F := Ideal) m ρ),
      (θ_run Cert.ReferenceIdeal.defs _ _).mono (fun _ h c => ⟨by
          rw [(h c).1, Cert.ReferenceIdeal.Read.val_main_v84_eq, (hagree c).1, (hagree c).2.1, (hagree c).2.2.1, (hagree c).2.2.2.1,
            (hagree c).2.2.2.2.1, (hagree c).2.2.2.2.2.1, (hagree c).2.2.2.2.2.2.1, (hagree c).2.2.2.2.2.2.2]
          exact results_agree _ _ _ _ _ _ _ _ (hpre c), (h c).2⟩)
        (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
